-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)) →
    ∃ (v0 : (c : Dev Cert.KernelIdeal.nD) → Buf (Elt Ideal) ((c.tc : Thread Cert.KernelIdeal.nD Cert.KernelIdeal.τ).loc Cert.KernelIdeal.main_v14)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v14) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v33) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x1024 : Shape := ⟨2, ![16384, 1024]⟩
abbrev S1024x1024 : Shape := ⟨2, ![1024, 1024]⟩
abbrev S1024 : Shape := ⟨1, ![1024]⟩
abbrev S_ : Shape := ⟨0, ![]⟩

class Facts : Prop where
  bcast_S_S16384x1024 : S_.BroadcastsInDim S16384x1024 (![] : Fin 0 → Fin S16384x1024.rank)
  reducesTo_S16384x1024_S_d0_1 : S16384x1024.ReducesTo [0, 1] S_
  h_S_ : 0 < S_.numel
  bcast_S_S1024x1024 : S_.BroadcastsInDim S1024x1024 (![] : Fin 0 → Fin S1024x1024.rank)
  reducesTo_S1024x1024_S_d0_1 : S1024x1024.ReducesTo [0, 1] S_
  bcast_S_S1024 : S_.BroadcastsInDim S1024 (![] : Fin 0 → Fin S1024.rank)
  reducesTo_S1024_S_d0 : S1024.ReducesTo [0] S_

variable [Facts]

def fn_part4 {F : FTy → Type} [FloatOps F] (main_arg14 : FVec F S1024 .f32) (main_v63 : IVec S_ 1) (main_v67 : IVec S_ 1) : IVec S_ 1 :=
  let main_v68 : IVec S_ 1 := andi main_v63 main_v67
  let main_v69 : FVec F S1024 .f32 := Host.absf main_arg14
  let main_cst_26 : FVec F S_ .f32 := constant S_ .f32 0x7F800000#32
  let main_v70 : FVec F S1024 .f32 := broadcastInDim S1024 ![] bcast_S_S1024 main_cst_26
  let main_v71 : IVec S1024 1 := cmpf .olt main_v69 main_v70
  let main_c_27 : IVec S_ 1 := constantI S_ 1 1#1
  let main_v72 : IVec S_ 1 := (fun x v => Host.reduce IntOp.andi x v reducesTo_S1024_S_d0 h_S_) main_v71 main_c_27
  let main_v73 : IVec S_ 1 := andi main_v68 main_v72
  main_v73

def fn_part3 {F : FTy → Type} [FloatOps F] (main_arg11 : FVec F S1024x1024 .f32) (main_arg12 : FVec F S1024 .f32) (main_arg13 : FVec F S1024x1024 .f32) (main_arg14 : FVec F S1024 .f32) (main_v48 : IVec S_ 1) (main_v49 : FVec F S1024 .f32) (main_v50 : FVec F S1024 .f32) : IVec S_ 1 :=
  let main_v51 : IVec S1024 1 := cmpf .olt main_v49 main_v50
  let main_c_19 : IVec S_ 1 := constantI S_ 1 1#1
  let main_v52 : IVec S_ 1 := (fun x v => Host.reduce IntOp.andi x v reducesTo_S1024_S_d0 h_S_) main_v51 main_c_19
  let main_v53 : IVec S_ 1 := andi main_v48 main_v52
  let main_v54 : FVec F S1024x1024 .f32 := Host.absf main_arg11
  let main_cst_20 : FVec F S_ .f32 := constant S_ .f32 0x7F800000#32
  let main_v55 : FVec F S1024x1024 .f32 := broadcastInDim S1024x1024 ![] bcast_S_S1024x1024 main_cst_20
  let main_v56 : IVec S1024x1024 1 := cmpf .olt main_v54 main_v55
  let main_c_21 : IVec S_ 1 := constantI S_ 1 1#1
  let main_v57 : IVec S_ 1 := (fun x v => Host.reduce IntOp.andi x v reducesTo_S1024x1024_S_d0_1 h_S_) main_v56 main_c_21
  let main_v58 : IVec S_ 1 := andi main_v53 main_v57
  let main_v59 : FVec F S1024 .f32 := Host.absf main_arg12
  let main_cst_22 : FVec F S_ .f32 := constant S_ .f32 0x7F800000#32
  let main_v60 : FVec F S1024 .f32 := broadcastInDim S1024 ![] bcast_S_S1024 main_cst_22
  let main_v61 : IVec S1024 1 := cmpf .olt main_v59 main_v60
  let main_c_23 : IVec S_ 1 := constantI S_ 1 1#1
  let main_v62 : IVec S_ 1 := (fun x v => Host.reduce IntOp.andi x v reducesTo_S1024_S_d0 h_S_) main_v61 main_c_23
  let main_v63 : IVec S_ 1 := andi main_v58 main_v62
  let main_v64 : FVec F S1024x1024 .f32 := Host.absf main_arg13
  let main_cst_24 : FVec F S_ .f32 := constant S_ .f32 0x7F800000#32
  let main_v65 : FVec F S1024x1024 .f32 := broadcastInDim S1024x1024 ![] bcast_S_S1024x1024 main_cst_24
  let main_v66 : IVec S1024x1024 1 := cmpf .olt main_v64 main_v65
  let main_c_25 : IVec S_ 1 := constantI S_ 1 1#1
  let main_v67 : IVec S_ 1 := (fun x v => Host.reduce IntOp.andi x v reducesTo_S1024x1024_S_d0_1 h_S_) main_v66 main_c_25
  fn_part4 (F := F) main_arg14 main_v63 main_v67

def fn_part2 {F : FTy → Type} [FloatOps F] (main_arg7 : FVec F S1024x1024 .f32) (main_arg8 : FVec F S1024 .f32) (main_arg9 : FVec F S1024x1024 .f32) (main_arg10 : FVec F S1024 .f32) (main_arg11 : FVec F S1024x1024 .f32) (main_arg12 : FVec F S1024 .f32) (main_arg13 : FVec F S1024x1024 .f32) (main_arg14 : FVec F S1024 .f32) (main_v33 : IVec S_ 1) : IVec S_ 1 :=
  let main_v34 : FVec F S1024x1024 .f32 := Host.absf main_arg7
  let main_cst_12 : FVec F S_ .f32 := constant S_ .f32 0x7F800000#32
  let main_v35 : FVec F S1024x1024 .f32 := broadcastInDim S1024x1024 ![] bcast_S_S1024x1024 main_cst_12
  let main_v36 : IVec S1024x1024 1 := cmpf .olt main_v34 main_v35
  let main_c_13 : IVec S_ 1 := constantI S_ 1 1#1
  let main_v37 : IVec S_ 1 := (fun x v => Host.reduce IntOp.andi x v reducesTo_S1024x1024_S_d0_1 h_S_) main_v36 main_c_13
  let main_v38 : IVec S_ 1 := andi main_v33 main_v37
  let main_v39 : FVec F S1024 .f32 := Host.absf main_arg8
  let main_cst_14 : FVec F S_ .f32 := constant S_ .f32 0x7F800000#32
  let main_v40 : FVec F S1024 .f32 := broadcastInDim S1024 ![] bcast_S_S1024 main_cst_14
  let main_v41 : IVec S1024 1 := cmpf .olt main_v39 main_v40
  let main_c_15 : IVec S_ 1 := constantI S_ 1 1#1
  let main_v42 : IVec S_ 1 := (fun x v => Host.reduce IntOp.andi x v reducesTo_S1024_S_d0 h_S_) main_v41 main_c_15
  let main_v43 : IVec S_ 1 := andi main_v38 main_v42
  let main_v44 : FVec F S1024x1024 .f32 := Host.absf main_arg9
  let main_cst_16 : FVec F S_ .f32 := constant S_ .f32 0x7F800000#32
  let main_v45 : FVec F S1024x1024 .f32 := broadcastInDim S1024x1024 ![] bcast_S_S1024x1024 main_cst_16
  let main_v46 : IVec S1024x1024 1 := cmpf .olt main_v44 main_v45
  let main_c_17 : IVec S_ 1 := constantI S_ 1 1#1
  let main_v47 : IVec S_ 1 := (fun x v => Host.reduce IntOp.andi x v reducesTo_S1024x1024_S_d0_1 h_S_) main_v46 main_c_17
  let main_v48 : IVec S_ 1 := andi main_v43 main_v47
  let main_v49 : FVec F S1024 .f32 := Host.absf main_arg10
  let main_cst_18 : FVec F S_ .f32 := constant S_ .f32 0x7F800000#32
  let main_v50 : FVec F S1024 .f32 := broadcastInDim S1024 ![] bcast_S_S1024 main_cst_18
  fn_part3 (F := F) main_arg11 main_arg12 main_arg13 main_arg14 main_v48 main_v49 main_v50

def fn_part1 {F : FTy → Type} [FloatOps F] (main_arg4 : FVec F S1024 .f32) (main_arg5 : FVec F S1024x1024 .f32) (main_arg6 : FVec F S1024 .f32) (main_arg7 : FVec F S1024x1024 .f32) (main_arg8 : FVec F S1024 .f32) (main_arg9 : FVec F S1024x1024 .f32) (main_arg10 : FVec F S1024 .f32) (main_arg11 : FVec F S1024x1024 .f32) (main_arg12 : FVec F S1024 .f32) (main_arg13 : FVec F S1024x1024 .f32) (main_arg14 : FVec F S1024 .f32) (main_v13 : IVec S_ 1) (main_v16 : IVec S1024x1024 1) : IVec S_ 1 :=
  let main_c_5 : IVec S_ 1 := constantI S_ 1 1#1
  let main_v17 : IVec S_ 1 := (fun x v => Host.reduce IntOp.andi x v reducesTo_S1024x1024_S_d0_1 h_S_) main_v16 main_c_5
  let main_v18 : IVec S_ 1 := andi main_v13 main_v17
  let main_v19 : FVec F S1024 .f32 := Host.absf main_arg4
  let main_cst_6 : FVec F S_ .f32 := constant S_ .f32 0x7F800000#32
  let main_v20 : FVec F S1024 .f32 := broadcastInDim S1024 ![] bcast_S_S1024 main_cst_6
  let main_v21 : IVec S1024 1 := cmpf .olt main_v19 main_v20
  let main_c_7 : IVec S_ 1 := constantI S_ 1 1#1
  let main_v22 : IVec S_ 1 := (fun x v => Host.reduce IntOp.andi x v reducesTo_S1024_S_d0 h_S_) main_v21 main_c_7
  let main_v23 : IVec S_ 1 := andi main_v18 main_v22
  let main_v24 : FVec F S1024x1024 .f32 := Host.absf main_arg5
  let main_cst_8 : FVec F S_ .f32 := constant S_ .f32 0x7F800000#32
  let main_v25 : FVec F S1024x1024 .f32 := broadcastInDim S1024x1024 ![] bcast_S_S1024x1024 main_cst_8
  let main_v26 : IVec S1024x1024 1 := cmpf .olt main_v24 main_v25
  let main_c_9 : IVec S_ 1 := constantI S_ 1 1#1
  let main_v27 : IVec S_ 1 := (fun x v => Host.reduce IntOp.andi x v reducesTo_S1024x1024_S_d0_1 h_S_) main_v26 main_c_9
  let main_v28 : IVec S_ 1 := andi main_v23 main_v27
  let main_v29 : FVec F S1024 .f32 := Host.absf main_arg6
  let main_cst_10 : FVec F S_ .f32 := constant S_ .f32 0x7F800000#32
  let main_v30 : FVec F S1024 .f32 := broadcastInDim S1024 ![] bcast_S_S1024 main_cst_10
  let main_v31 : IVec S1024 1 := cmpf .olt main_v29 main_v30
  let main_c_11 : IVec S_ 1 := constantI S_ 1 1#1
  let main_v32 : IVec S_ 1 := (fun x v => Host.reduce IntOp.andi x v reducesTo_S1024_S_d0 h_S_) main_v31 main_c_11
  let main_v33 : IVec S_ 1 := andi main_v28 main_v32
  fn_part2 (F := F) main_arg7 main_arg8 main_arg9 main_arg10 main_arg11 main_arg12 main_arg13 main_arg14 main_v33

def fn {F : FTy → Type} [FloatOps F] (main_arg0 : FVec F S16384x1024 .f32) (main_arg1 : FVec F S16384x1024 .f32) (main_arg2 : FVec F S16384x1024 .f32) (main_arg3 : FVec F S1024x1024 .f32) (main_arg4 : FVec F S1024 .f32) (main_arg5 : FVec F S1024x1024 .f32) (main_arg6 : FVec F S1024 .f32) (main_arg7 : FVec F S1024x1024 .f32) (main_arg8 : FVec F S1024 .f32) (main_arg9 : FVec F S1024x1024 .f32) (main_arg10 : FVec F S1024 .f32) (main_arg11 : FVec F S1024x1024 .f32) (main_arg12 : FVec F S1024 .f32) (main_arg13 : FVec F S1024x1024 .f32) (main_arg14 : FVec F S1024 .f32) : IVec S_ 1 :=
  let main_v0 : FVec F S16384x1024 .f32 := Host.absf main_arg0
  let main_cst : FVec F S_ .f32 := constant S_ .f32 0x7F800000#32
  let main_v1 : FVec F S16384x1024 .f32 := broadcastInDim S16384x1024 ![] bcast_S_S16384x1024 main_cst
  let main_v2 : IVec S16384x1024 1 := cmpf .olt main_v0 main_v1
  let main_c : IVec S_ 1 := constantI S_ 1 1#1
  let main_v3 : IVec S_ 1 := (fun x v => Host.reduce IntOp.andi x v reducesTo_S16384x1024_S_d0_1 h_S_) main_v2 main_c
  let main_v4 : FVec F S16384x1024 .f32 := Host.absf main_arg1
  let main_cst_0 : FVec F S_ .f32 := constant S_ .f32 0x7F800000#32
  let main_v5 : FVec F S16384x1024 .f32 := broadcastInDim S16384x1024 ![] bcast_S_S16384x1024 main_cst_0
  let main_v6 : IVec S16384x1024 1 := cmpf .olt main_v4 main_v5
  let main_c_1 : IVec S_ 1 := constantI S_ 1 1#1
  let main_v7 : IVec S_ 1 := (fun x v => Host.reduce IntOp.andi x v reducesTo_S16384x1024_S_d0_1 h_S_) main_v6 main_c_1
  let main_v8 : IVec S_ 1 := andi main_v3 main_v7
  let main_v9 : FVec F S16384x1024 .f32 := Host.absf main_arg2
  let main_cst_2 : FVec F S_ .f32 := constant S_ .f32 0x7F800000#32
  let main_v10 : FVec F S16384x1024 .f32 := broadcastInDim S16384x1024 ![] bcast_S_S16384x1024 main_cst_2
  let main_v11 : IVec S16384x1024 1 := cmpf .olt main_v9 main_v10
  let main_c_3 : IVec S_ 1 := constantI S_ 1 1#1
  let main_v12 : IVec S_ 1 := (fun x v => Host.reduce IntOp.andi x v reducesTo_S16384x1024_S_d0_1 h_S_) main_v11 main_c_3
  let main_v13 : IVec S_ 1 := andi main_v8 main_v12
  let main_v14 : FVec F S1024x1024 .f32 := Host.absf main_arg3
  let main_cst_4 : FVec F S_ .f32 := constant S_ .f32 0x7F800000#32
  let main_v15 : FVec F S1024x1024 .f32 := broadcastInDim S1024x1024 ![] bcast_S_S1024x1024 main_cst_4
  let main_v16 : IVec S1024x1024 1 := cmpf .olt main_v14 main_v15
  fn_part1 (F := F) main_arg4 main_arg5 main_arg6 main_arg7 main_arg8 main_arg9 main_arg10 main_arg11 main_arg12 main_arg13 main_arg14 main_v13 main_v16
-- ==== Kernel.lean ====
abbrev S16384x1024 : Shape := ⟨2, ![16384, 1024]⟩
abbrev S1024x1024 : Shape := ⟨2, ![1024, 1024]⟩
abbrev S1024 : Shape := ⟨1, ![1024]⟩
abbrev S1024x3072 : Shape := ⟨2, ![1024, 3072]⟩
abbrev S3072 : Shape := ⟨1, ![3072]⟩
abbrev S1x3072 : Shape := ⟨2, ![1, 3072]⟩
abbrev S256x1024 : Shape := ⟨2, ![256, 1024]⟩
abbrev S256x3072 : Shape := ⟨2, ![256, 3072]⟩

abbrev nBuf : Space → Nat
  | .hbm => 30
  | .vmem => 11
  | .smem => 0
  | _ => 0

abbrev bufTy : (tb : Table) → Fin (tcTables nBuf tb) → BufTy
  | .hbm, ⟨0, _⟩ => ⟨S16384x1024, .f32⟩
  | .hbm, ⟨1, _⟩ => ⟨S16384x1024, .f32⟩
  | .hbm, ⟨2, _⟩ => ⟨S16384x1024, .f32⟩
  | .hbm, ⟨3, _⟩ => ⟨S1024x1024, .f32⟩
  | .hbm, ⟨4, _⟩ => ⟨S1024, .f32⟩
  | .hbm, ⟨5, _⟩ => ⟨S1024x1024, .f32⟩
  | .hbm, ⟨6, _⟩ => ⟨S1024, .f32⟩
  | .hbm, ⟨7, _⟩ => ⟨S1024x1024, .f32⟩
  | .hbm, ⟨8, _⟩ => ⟨S1024, .f32⟩
  | .hbm, ⟨9, _⟩ => ⟨S1024x1024, .f32⟩
  | .hbm, ⟨10, _⟩ => ⟨S1024, .f32⟩
  | .hbm, ⟨11, _⟩ => ⟨S1024x1024, .f32⟩
  | .hbm, ⟨12, _⟩ => ⟨S1024, .f32⟩
  | .hbm, ⟨13, _⟩ => ⟨S1024x1024, .f32⟩
  | .hbm, ⟨14, _⟩ => ⟨S1024, .f32⟩
  | .hbm, ⟨15, _⟩ => ⟨S1024x1024, .f32⟩
  | .hbm, ⟨16, _⟩ => ⟨S1024x1024, .f32⟩
  | .hbm, ⟨17, _⟩ => ⟨S1024x1024, .f32⟩
  | .hbm, ⟨18, _⟩ => ⟨S1024x3072, .f32⟩
  | .hbm, ⟨19, _⟩ => ⟨S1024x3072, .bf16⟩
  | .hbm, ⟨20, _⟩ => ⟨S1024x1024, .f32⟩
  | .hbm, ⟨21, _⟩ => ⟨S1024x1024, .f32⟩
  | .hbm, ⟨22, _⟩ => ⟨S1024x1024, .f32⟩
  | .hbm, ⟨23, _⟩ => ⟨S1024x3072, .f32⟩
  | .hbm, ⟨24, _⟩ => ⟨S1024x3072, .bf16⟩
  | .hbm, ⟨25, _⟩ => ⟨S3072, .f32⟩
  | .hbm, ⟨26, _⟩ => ⟨S3072, .f32⟩
  | .hbm, ⟨27, _⟩ => ⟨S3072, .f32⟩
  | .hbm, ⟨28, _⟩ => ⟨S1x3072, .f32⟩
  | .hbm, ⟨29, _⟩ => ⟨S16384x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S1024x3072, .bf16⟩
  | .local _ .vmem, ⟨7, _⟩ => ⟨S1024x3072, .bf16⟩
  | .local _ .vmem, ⟨8, _⟩ => ⟨S1x3072, .f32⟩
  | .local _ .vmem, ⟨9, _⟩ => ⟨S256x1024, .f32⟩
  | .local _ .vmem, ⟨10, _⟩ => ⟨S256x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x3072 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x3072 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x3072 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

class Facts₀ : Prop where
  transposes_S1024x1024_S1024x1024_1_0 : S1024x1024.Transposes [1, 0] S1024x1024
  concatenates_S1024x1024_S1024x1024_S1024x1024_S1024x3072_d1 : Shape.Concatenates [S1024x1024, S1024x1024, S1024x1024] S1024x3072 1
  bitsLt_bf16_f32 : FTy.bits .bf16 < FTy.bits .f32
  concatenates_S1024_S1024_S1024_S3072_d0 : Shape.Concatenates [S1024, S1024, S1024] S3072 0
  shapeCasts_S3072_S1x3072 : S3072.ShapeCasts S1x3072
  inb_S256x1024_S256x1024_0_0 : ∀ a, (![0, 0] : Fin 2 → Nat) a + S256x1024.size a ≤ S256x1024.size a
  h_S256x1024 : 0 < S256x1024.numel
  inb_S1024x3072_S1024x3072_0_0 : ∀ a, (![0, 0] : Fin 2 → Nat) a + S1024x3072.size a ≤ S1024x3072.size a
  h_S1024x3072 : 0 < S1024x3072.numel
  shapeCasts_S1024x3072_S1024x3072 : S1024x3072.ShapeCasts S1024x3072
  inb_S1x3072_S1x3072_0_0 : ∀ a, (![0, 0] : Fin 2 → Nat) a + S1x3072.size a ≤ S1x3072.size a
  h_S1x3072 : 0 < S1x3072.numel
  shapeCasts_S1x3072_S1x3072 : S1x3072.ShapeCasts S1x3072
  broadcasts_S1x3072_S256x3072 : S1x3072.Broadcasts S256x3072
  slices_S256x3072_o0_0_S256x1024 : S256x3072.Slices ![0, 0] S256x1024
  slices_S256x3072_o0_1024_S256x1024 : S256x3072.Slices ![0, 1024] S256x1024
  slices_S256x3072_o0_2048_S256x1024 : S256x3072.Slices ![0, 2048] S256x1024
  dot_S256x1024_S1024x3072_S256x3072_1_0_0_1_n_n_wf : DotDims.WF S256x1024 S1024x3072 S256x3072 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x1024.size a ≤ S16384x1024.size a
  hwx0_0 : ∀ i : grid0.Coords, EltTy.bits .f32 = 32 ∨ (Rect.block (s := S16384x1024) S256x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x1024.size a ≤ S16384x1024.size a
  hwx0_1 : ∀ i : grid0.Coords, EltTy.bits .f32 = 32 ∨ (Rect.block (s := S16384x1024) S256x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x1024.size a ≤ S16384x1024.size a
  hwx0_2 : ∀ i : grid0.Coords, EltTy.bits .f32 = 32 ∨ (Rect.block (s := S16384x1024) S256x1024.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1024x3072.size a ≤ S1024x3072.size a
  hwx0_3 : ∀ i : grid0.Coords, EltTy.bits .bf16 = 32 ∨ (Rect.block (s := S1024x3072) S1024x3072.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1024x3072.size a ≤ S1024x3072.size a
  hwx0_4 : ∀ i : grid0.Coords, EltTy.bits .bf16 = 32 ∨ (Rect.block (s := S1024x3072) S1024x3072.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x3072.size a ≤ S1x3072.size a
  hwx0_5 : ∀ i : grid0.Coords, EltTy.bits .f32 = 32 ∨ (Rect.block (s := S1x3072) S1x3072.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S256x1024.size a ≤ S16384x1024.size a
  hwx0_6 : ∀ i : grid0.Coords, EltTy.bits .f32 = 32 ∨ (Rect.block (s := S16384x1024) S256x1024.size (cc0_transform_6 i) (hinb0_6 i)).WholeWords (EltTy.packing .f32)

variable [Facts₀]

def dot_S256x1024_S1024x3072_S256x3072_1_0_0_1_n_n : DotDims S256x1024 S1024x3072 S256x3072 where
  lhsContracting := [1]
  rhsContracting := [0]
  lhsNonContracting := [0]
  rhsNonContracting := [1]
  lhsBatch := []
  rhsBatch := []
  wf := dot_S256x1024_S1024x3072_S256x3072_1_0_0_1_n_n_wf

abbrev win0_0 : Pipeline.Window sig grid0 :=
  Pipeline.Window.ofSpec (Memref.whole main_arg0) S256x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S256x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S256x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v4) S1024x3072.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v9) S1024x3072.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v13) S1x3072.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v14) S256x1024.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S16384x1024 : Shape := ⟨2, ![16384, 1024]⟩
abbrev S1024x1024 : Shape := ⟨2, ![1024, 1024]⟩
abbrev S1024 : Shape := ⟨1, ![1024]⟩
abbrev S3072x1024 : Shape := ⟨2, ![3072, 1024]⟩
abbrev S3072 : Shape := ⟨1, ![3072]⟩
abbrev S1024x3072 : Shape := ⟨2, ![1024, 3072]⟩
abbrev S16384x3072 : Shape := ⟨2, ![16384, 3072]⟩
abbrev S1x3072 : Shape := ⟨2, ![1, 3072]⟩
abbrev S_ : Shape := ⟨0, ![]⟩

abbrev nBuf : Space → Nat
  | .hbm => 53
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S16384x1024, .f32⟩
  | .hbm, ⟨2, _⟩ => ⟨S16384x1024, .f32⟩
  | .hbm, ⟨3, _⟩ => ⟨S1024x1024, .f32⟩
  | .hbm, ⟨4, _⟩ => ⟨S1024, .f32⟩
  | .hbm, ⟨5, _⟩ => ⟨S1024x1024, .f32⟩
  | .hbm, ⟨6, _⟩ => ⟨S1024, .f32⟩
  | .hbm, ⟨7, _⟩ => ⟨S1024x1024, .f32⟩
  | .hbm, ⟨8, _⟩ => ⟨S1024, .f32⟩
  | .hbm, ⟨9, _⟩ => ⟨S1024x1024, .f32⟩
  | .hbm, ⟨10, _⟩ => ⟨S1024, .f32⟩
  | .hbm, ⟨11, _⟩ => ⟨S1024x1024, .f32⟩
  | .hbm, ⟨12, _⟩ => ⟨S1024, .f32⟩
  | .hbm, ⟨13, _⟩ => ⟨S1024x1024, .f32⟩
  | .hbm, ⟨14, _⟩ => ⟨S1024, .f32⟩
  | .hbm, ⟨15, _⟩ => ⟨S3072x1024, .f32⟩
  | .hbm, ⟨16, _⟩ => ⟨S3072x1024, .f32⟩
  | .hbm, ⟨17, _⟩ => ⟨S3072, .f32⟩
  | .hbm, ⟨18, _⟩ => ⟨S3072, .f32⟩
  | .hbm, ⟨19, _⟩ => ⟨S1024x3072, .f32⟩
  | .hbm, ⟨20, _⟩ => ⟨S16384x3072, .f32⟩
  | .hbm, ⟨21, _⟩ => ⟨S1x3072, .f32⟩
  | .hbm, ⟨22, _⟩ => ⟨S16384x3072, .f32⟩
  | .hbm, ⟨23, _⟩ => ⟨S16384x3072, .f32⟩
  | .hbm, ⟨24, _⟩ => ⟨S1024x3072, .f32⟩
  | .hbm, ⟨25, _⟩ => ⟨S16384x3072, .f32⟩
  | .hbm, ⟨26, _⟩ => ⟨S16384x3072, .f32⟩
  | .hbm, ⟨27, _⟩ => ⟨S1x3072, .f32⟩
  | .hbm, ⟨28, _⟩ => ⟨S16384x3072, .f32⟩
  | .hbm, ⟨29, _⟩ => ⟨S16384x3072, .f32⟩
  | .hbm, ⟨30, _⟩ => ⟨S16384x1024, .f32⟩
  | .hbm, ⟨31, _⟩ => ⟨S16384x1024, .f32⟩
  | .hbm, ⟨32, _⟩ => ⟨S16384x1024, .f32⟩
  | .hbm, ⟨33, _⟩ => ⟨S16384x1024, .f32⟩
  | .hbm, ⟨34, _⟩ => ⟨S16384x1024, .f32⟩
  | .hbm, ⟨35, _⟩ => ⟨S_, .f32⟩
  | .hbm, ⟨36, _⟩ => ⟨S16384x1024, .f32⟩
  | .hbm, ⟨37, _⟩ => ⟨S16384x1024, .f32⟩
  | .hbm, ⟨38, _⟩ => ⟨S_, .f32⟩
  | .hbm, ⟨39, _⟩ => ⟨S16384x1024, .f32⟩
  | .hbm, ⟨40, _⟩ => ⟨S16384x1024, .f32⟩
  | .hbm, ⟨41, _⟩ => ⟨S16384x1024, .f32⟩
  | .hbm, ⟨42, _⟩ => ⟨S16384x1024, .f32⟩
  | .hbm, ⟨43, _⟩ => ⟨S_, .f32⟩
  | .hbm, ⟨44, _⟩ => ⟨S16384x1024, .f32⟩
  | .hbm, ⟨45, _⟩ => ⟨S16384x1024, .f32⟩
  | .hbm, ⟨46, _⟩ => ⟨S_, .f32⟩
  | .hbm, ⟨47, _⟩ => ⟨S16384x1024, .f32⟩
  | .hbm, ⟨48, _⟩ => ⟨S16384x1024, .f32⟩
  | .hbm, ⟨49, _⟩ => ⟨S16384x1024, .f32⟩
  | .hbm, ⟨50, _⟩ => ⟨S16384x1024, .f32⟩
  | .hbm, ⟨51, _⟩ => ⟨S16384x1024, .f32⟩
  | .hbm, ⟨52, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_cst : Ref sig .tc := ⟨.hbm, 35, rfl⟩
abbrev main_v20 : Ref sig .tc := ⟨.hbm, 36, rfl⟩
abbrev main_v21 : Ref sig .tc := ⟨.hbm, 37, rfl⟩
abbrev main_cst_0 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_cst_1 : Ref sig .tc := ⟨.hbm, 43, rfl⟩
abbrev main_v26 : Ref sig .tc := ⟨.hbm, 44, rfl⟩
abbrev main_v27 : Ref sig .tc := ⟨.hbm, 45, rfl⟩
abbrev main_cst_2 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩

abbrev nD : Nat := 1
abbrev τ : Topo := Topo.v7x

variable {F : FTy → Type} [FloatOps F]

class Facts₀ : Prop where
  concatenates_S1024x1024_S1024x1024_S1024x1024_S3072x1024_d0 : Shape.Concatenates [S1024x1024, S1024x1024, S1024x1024] S3072x1024 0
  concatenates_S1024_S1024_S1024_S3072_d0 : Shape.Concatenates [S1024, S1024, S1024] S3072 0
  transposes_S3072x1024_S1024x3072_1_0 : S3072x1024.Transposes [1, 0] S1024x3072
  bcast_S3072_S1x3072_1 : S3072.BroadcastsInDim S1x3072 (![1] : Fin 1 → Fin S1x3072.rank)
  bcast_S1x3072_S16384x3072_0_1 : S1x3072.BroadcastsInDim S16384x3072 (![0, 1] : Fin 2 → Fin S16384x3072.rank)
  slices_S16384x3072_S16384x1024_0_0 : S16384x3072.Slices ![0, 0] S16384x1024
  slices_S16384x3072_S16384x1024_0_1024 : S16384x3072.Slices ![0, 1024] S16384x1024
  slices_S16384x3072_S16384x1024_0_2048 : S16384x3072.Slices ![0, 2048] S16384x1024
  bcast_S_S16384x1024 : S_.BroadcastsInDim S16384x1024 (![] : Fin 0 → Fin S16384x1024.rank)
  dot_S16384x1024_S1024x3072_S16384x3072_1_0_0_1_n_n_wf : DotDims.WF S16384x1024 S1024x3072 S16384x3072 [1] [0] [0] [1] [] []

variable [Facts₀]

def dot_S16384x1024_S1024x3072_S16384x3072_1_0_0_1_n_n : DotDims S16384x1024 S1024x3072 S16384x3072 where
  lhsContracting := [1]
  rhsContracting := [0]
  lhsNonContracting := [0]
  rhsNonContracting := [1]
  lhsBatch := []
  rhsBatch := []
  wf := dot_S16384x1024_S1024x3072_S16384x3072_1_0_0_1_n_n_wf

class Facts : Prop extends Facts₀ where

variable [Facts]
-- ==== Proof.FrameBits.lean ====
/-
  The run of the program to its end, and what it leaves in memory.

  @main first forms, on the host, the two fused weight matrices — each the three gates' transposed weight matrices laid
  side by side, 1024 by 3072 — and the fused bias row, 1 by 3072, the sum of the two concatenated bias vectors. Then
  one launch over 64 grid points: point `t` is handed rows 256·t … 256·t + 255 of x, of h and of c, the whole of both fused
  matrices and of the bias row, and writes rows 256·t … 256·t + 255 of the result.
  Stated here: what the result's staging buffer holds after the body at a point (`blockOut`: the body stores once, over the
  whole buffer, the body's arithmetic of the six input blocks); the body's triple; and from it the run — every weakly fair
  execution terminates without a fault, the result array ends at the blocks written back, and every other array holds what
  it held when the launch began, so the fifteen arguments end unchanged. Everything is stated for any float instance.
-/
import proofs.«123593_j33921651704111_2_alg».proof.Proof.Gen.Kernel.Launch
import proofs.«123593_j33921651704111_2_alg».proof.Proof.Gen.Kernel.Skeleton
import proofs.«123593_j33921651704111_2_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Facts₀ Cert.Kernel.Facts

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main up to the launch -/

/-- Core `c`'s arrays when the launch begins: the given memory after the fourteen host operations. -/
abbrev V (c : Dev nD) (b : Ref sig .tc) : Buf (Elt F) ((c : Thread nD τ).loc b) :=
  StableHlo.after hostOps0 (fun b => m (c, b)) b

/-- None of the host operations allocates. -/
theorem hostOps0_fresh : (hostOps0 : List (HloOp τ sig (Elt F))).Forall fun op => op.fresh = ∅ := by
  simp only [List.Forall]; repeat' constructor

/-- @main is the host operations followed by the launch. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- No host operation before the launch writes argument 0: the launch finds it as it was given. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.Forall, StableHlo.unary_writes, StableHlo.binary_writes, StableHlo.nary_writes,
      StableHlo.reshape_writes, Finset.mem_singleton]
    repeat' apply And.intro
    all_goals exact StableHlo.devRef_ne_of_ne (by decide)))
/-- No host operation before the launch writes argument 1: the launch finds it as it was given. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.Forall, StableHlo.unary_writes, StableHlo.binary_writes, StableHlo.nary_writes,
      StableHlo.reshape_writes, Finset.mem_singleton]
    repeat' apply And.intro
    all_goals exact StableHlo.devRef_ne_of_ne (by decide)))
/-- No host operation before the launch writes argument 2: the launch finds it as it was given. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.Forall, StableHlo.unary_writes, StableHlo.binary_writes, StableHlo.nary_writes,
      StableHlo.reshape_writes, Finset.mem_singleton]
    repeat' apply And.intro
    all_goals exact StableHlo.devRef_ne_of_ne (by decide)))
/-- No host operation before the launch writes argument 3: the launch finds it as it was given. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.Forall, StableHlo.unary_writes, StableHlo.binary_writes, StableHlo.nary_writes,
      StableHlo.reshape_writes, Finset.mem_singleton]
    repeat' apply And.intro
    all_goals exact StableHlo.devRef_ne_of_ne (by decide)))
/-- No host operation before the launch writes argument 4: the launch finds it as it was given. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.Forall, StableHlo.unary_writes, StableHlo.binary_writes, StableHlo.nary_writes,
      StableHlo.reshape_writes, Finset.mem_singleton]
    repeat' apply And.intro
    all_goals exact StableHlo.devRef_ne_of_ne (by decide)))
/-- No host operation before the launch writes argument 5: the launch finds it as it was given. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.Forall, StableHlo.unary_writes, StableHlo.binary_writes, StableHlo.nary_writes,
      StableHlo.reshape_writes, Finset.mem_singleton]
    repeat' apply And.intro
    all_goals exact StableHlo.devRef_ne_of_ne (by decide)))
/-- No host operation before the launch writes argument 6: the launch finds it as it was given. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.Forall, StableHlo.unary_writes, StableHlo.binary_writes, StableHlo.nary_writes,
      StableHlo.reshape_writes, Finset.mem_singleton]
    repeat' apply And.intro
    all_goals exact StableHlo.devRef_ne_of_ne (by decide)))
/-- No host operation before the launch writes argument 7: the launch finds it as it was given. -/
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, List.Forall, StableHlo.unary_writes, StableHlo.binary_writes, StableHlo.nary_writes,
      StableHlo.reshape_writes, Finset.mem_singleton]
    repeat' apply And.intro
    all_goals exact StableHlo.devRef_ne_of_ne (by decide)))
/-- No host operation before the launch writes argument 8: the launch finds it as it was given. -/
theorem V_main_arg8 (c : Dev nD) : V m c main_arg8 = m ((c : Thread nD τ).loc main_arg8) :=
  StableHlo.after_of_forall_not_mem (b := Proc.devRef .tc main_arg8) _ _ (List.forall_iff_forall_mem.mp (by
    simp only [hostOps0, List.Forall, StableHlo.unary_writes, StableHlo.binary_writes, StableHlo.nary_writes,
      StableHlo.reshape_writes, Finset.mem_singleton]
    repeat' apply And.intro
    all_goals exact StableHlo.devRef_ne_of_ne (by decide)))
/-- No host operation before the launch writes argument 9: the launch finds it as it was given. -/
theorem V_main_arg9 (c : Dev nD) : V m c main_arg9 = m ((c : Thread nD τ).loc main_arg9) :=
  StableHlo.after_of_forall_not_mem (b := Proc.devRef .tc main_arg9) _ _ (List.forall_iff_forall_mem.mp (by
    simp only [hostOps0, List.Forall, StableHlo.unary_writes, StableHlo.binary_writes, StableHlo.nary_writes,
      StableHlo.reshape_writes, Finset.mem_singleton]
    repeat' apply And.intro
    all_goals exact StableHlo.devRef_ne_of_ne (by decide)))
/-- No host operation before the launch writes argument 10: the launch finds it as it was given. -/
theorem V_main_arg10 (c : Dev nD) : V m c main_arg10 = m ((c : Thread nD τ).loc main_arg10) :=
  StableHlo.after_of_forall_not_mem (b := Proc.devRef .tc main_arg10) _ _ (List.forall_iff_forall_mem.mp (by
    simp only [hostOps0, List.Forall, StableHlo.unary_writes, StableHlo.binary_writes, StableHlo.nary_writes,
      StableHlo.reshape_writes, Finset.mem_singleton]
    repeat' apply And.intro
    all_goals exact StableHlo.devRef_ne_of_ne (by decide)))
/-- No host operation before the launch writes argument 11: the launch finds it as it was given. -/
theorem V_main_arg11 (c : Dev nD) : V m c main_arg11 = m ((c : Thread nD τ).loc main_arg11) :=
  StableHlo.after_of_forall_not_mem (b := Proc.devRef .tc main_arg11) _ _ (List.forall_iff_forall_mem.mp (by
    simp only [hostOps0, List.Forall, StableHlo.unary_writes, StableHlo.binary_writes, StableHlo.nary_writes,
      StableHlo.reshape_writes, Finset.mem_singleton]
    repeat' apply And.intro
    all_goals exact StableHlo.devRef_ne_of_ne (by decide)))
/-- No host operation before the launch writes argument 12: the launch finds it as it was given. -/
theorem V_main_arg12 (c : Dev nD) : V m c main_arg12 = m ((c : Thread nD τ).loc main_arg12) :=
  StableHlo.after_of_forall_not_mem (b := Proc.devRef .tc main_arg12) _ _ (List.forall_iff_forall_mem.mp (by
    simp only [hostOps0, List.Forall, StableHlo.unary_writes, StableHlo.binary_writes, StableHlo.nary_writes,
      StableHlo.reshape_writes, Finset.mem_singleton]
    repeat' apply And.intro
    all_goals exact StableHlo.devRef_ne_of_ne (by decide)))
/-- No host operation before the launch writes argument 13: the launch finds it as it was given. -/
theorem V_main_arg13 (c : Dev nD) : V m c main_arg13 = m ((c : Thread nD τ).loc main_arg13) :=
  StableHlo.after_of_forall_not_mem (b := Proc.devRef .tc main_arg13) _ _ (List.forall_iff_forall_mem.mp (by
    simp only [hostOps0, List.Forall, StableHlo.unary_writes, StableHlo.binary_writes, StableHlo.nary_writes,
      StableHlo.reshape_writes, Finset.mem_singleton]
    repeat' apply And.intro
    all_goals exact StableHlo.devRef_ne_of_ne (by decide)))
/-- No host operation before the launch writes argument 14: the launch finds it as it was given. -/
theorem V_main_arg14 (c : Dev nD) : V m c main_arg14 = m ((c : Thread nD τ).loc main_arg14) :=
  StableHlo.after_of_forall_not_mem (b := Proc.devRef .tc main_arg14) _ _ (List.forall_iff_forall_mem.mp (by
    simp only [hostOps0, List.Forall, StableHlo.unary_writes, StableHlo.binary_writes, StableHlo.nary_writes,
      StableHlo.reshape_writes, Finset.mem_singleton]
    repeat' apply And.intro
    all_goals exact StableHlo.devRef_ne_of_ne (by decide)))

/-! ## The windows' blocks -/

/-- Window `w`'s block at point `t`, read off its array as the launch finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! Each input window's current staging buffer holds its block at every point, whether the point fetched it or an
    earlier one did (the three resident windows are fetched at the first point only, and their block never moves). -/
theorem before_in0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before_in1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before_in2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before_in3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before_in4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
theorem before_in5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)

/-! ## The arguments end unchanged -/

/-- In a final state where every array of the launch holds what the blocks written back make of it and every other
    array what the launch found: the fifteen arguments hold what they were given. The three row arrays are input windows'
    arrays, never written back; the other twelve are read only by the host operations. -/
theorem args_kept (dats : (p : Fin 1) → (c : Dev nD) → Dat τ (Elt F) Unit ℕ (UR sig nD τ) ℕ (cfgs p) c)
    (hA : ∀ c w, (dats 0 c).A w = V m c (Pipeline.arrRef spec0 w))
    (r : PUnit × MemSt nD τ sig (Elt F)) (h : Pipeline.FramePost cfgs dats 0 (V m) r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14) :=
  ⟨((h c).1 0).trans (((dats 0 c).arrAt_in 0 rfl _).trans ((hA c 0).trans (V_main_arg0 m c))),
    ((h c).1 1).trans (((dats 0 c).arrAt_in 1 rfl _).trans ((hA c 1).trans (V_main_arg1 m c))),
    ((h c).1 2).trans (((dats 0 c).arrAt_in 2 rfl _).trans ((hA c 2).trans (V_main_arg2 m c))),
    ((h c).2 main_arg3 (Pipeline.mem_restRefs_of main_arg3 (by decide) (by decide))).trans (V_main_arg3 m c),
    ((h c).2 main_arg4 (Pipeline.mem_restRefs_of main_arg4 (by decide) (by decide))).trans (V_main_arg4 m c),
    ((h c).2 main_arg5 (Pipeline.mem_restRefs_of main_arg5 (by decide) (by decide))).trans (V_main_arg5 m c),
    ((h c).2 main_arg6 (Pipeline.mem_restRefs_of main_arg6 (by decide) (by decide))).trans (V_main_arg6 m c),
    ((h c).2 main_arg7 (Pipeline.mem_restRefs_of main_arg7 (by decide) (by decide))).trans (V_main_arg7 m c),
    ((h c).2 main_arg8 (Pipeline.mem_restRefs_of main_arg8 (by decide) (by decide))).trans (V_main_arg8 m c),
    ((h c).2 main_arg9 (Pipeline.mem_restRefs_of main_arg9 (by decide) (by decide))).trans (V_main_arg9 m c),
    ((h c).2 main_arg10 (Pipeline.mem_restRefs_of main_arg10 (by decide) (by decide))).trans (V_main_arg10 m c),
    ((h c).2 main_arg11 (Pipeline.mem_restRefs_of main_arg11 (by decide) (by decide))).trans (V_main_arg11 m c),
    ((h c).2 main_arg12 (Pipeline.mem_restRefs_of main_arg12 (by decide) (by decide))).trans (V_main_arg12 m c),
    ((h c).2 main_arg13 (Pipeline.mem_restRefs_of main_arg13 (by decide) (by decide))).trans (V_main_arg13 m c),
    ((h c).2 main_arg14 (Pipeline.mem_restRefs_of main_arg14 (by decide) (by decide))).trans (V_main_arg14 m c)⟩

/-- So a run to such a state is a run after which the arguments are unchanged. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  (θ_run defs _ _).mono (fun r h c => args_kept m dats hA r h c) h

/-! ## The body's accesses -/

/-- A whole 256 by 1024 staging buffer. -/
abbrev rRows : Rect S256x1024 := Rect.unit (s := S256x1024) ![0, 0] S256x1024.size Gen.inb_S256x1024_S256x1024_0_0
/-- A whole 1024 by 3072 staging buffer. -/
abbrev rFused : Rect S1024x3072 := Rect.unit (s := S1024x3072) ![0, 0] S1024x3072.size Gen.inb_S1024x3072_S1024x3072_0_0
/-- The whole 1 by 3072 staging buffer. -/
abbrev rBias : Rect S1x3072 := Rect.unit (s := S1x3072) ![0, 0] S1x3072.size Gen.inb_S1x3072_S1x3072_0_0

/-! ## What the body leaves in the result's staging buffer -/

/-- The result window's staging buffer after the body, from the six input blocks (rows of x, of h, of c; the two fused
    matrices; the bias row): its one store, which is the body's arithmetic of what it loaded. -/
def blockOut (bx bh bc : Vec F S256x1024 .f32) (wx wh : Vec F S1024x3072 .bf16) (bb : Vec F S1x3072 .f32) : Vec F S256x1024 .f32 :=
  View.canon [⟨rRows, k0_pay1 (View.ld bx rRows) (View.ld bh rRows) (View.ld wx rFused) (View.ld wh rFused) (View.ld bb rBias) (View.ld bc rRows)⟩]

/-- The one store covers the buffer. -/
theorem blockOut_cover (p0 : Vec F S256x1024 .f32) (y : S256x1024.Idx) :
    ∃ pc ∈ ([⟨rRows, p0⟩] : List (View.Piece (Elt F) S256x1024 .f32)), y ∈ pc.1.set :=
  View.cover_of_tiled [⟨rRows, p0⟩] S256x1024.size (by rfl) y

/-! ## The body's triple -/

set_option maxHeartbeats 1000000 in
/-- The body on whole staging buffers — the six inputs' at known contents, the result's at anything — runs to the end with
    the inputs' buffers as they were and the result's at `blockOut` of the inputs'. -/
theorem sound_kernel (c : Dev nD) (E : Set ℕ) (i : grid0.Coords)
    (arg1 : Memref sig .tc .vmem S256x1024 .f32) (harg1 : arg1.IsWhole) (arg2 : Memref sig .tc .vmem S256x1024 .f32) (harg2 : arg2.IsWhole)
    (arg3 : Memref sig .tc .vmem S256x1024 .f32) (harg3 : arg3.IsWhole) (arg4 : Memref sig .tc .vmem S1024x3072 .bf16) (harg4 : arg4.IsWhole)
    (arg5 : Memref sig .tc .vmem S1024x3072 .bf16) (harg5 : arg5.IsWhole) (arg6 : Memref sig .tc .vmem S1x3072 .f32) (harg6 : arg6.IsWhole)
    (arg7 : Memref sig .tc .vmem S256x1024 .f32) (harg7 : arg7.IsWhole)
    (bx bh bc : Vec F S256x1024 .f32) (wx wh : Vec F S1024x3072 .bf16) (bb : Vec F S1x3072 .f32) (K : PUnit → sProp 𝕄) :
    iprop(owns (c : Thread nD τ) arg1 fullShare bx ∗ owns (c : Thread nD τ) arg2 fullShare bh ∗ owns (c : Thread nD τ) arg3 fullShare bc
        ∗ owns (c : Thread nD τ) arg4 fullShare wx ∗ owns (c : Thread nD τ) arg5 fullShare wh ∗ owns (c : Thread nD τ) arg6 fullShare bb
        ∗ (∃ d, owns (c : Thread nD τ) arg7 fullShare d)
        ∗ (iprop(owns (c : Thread nD τ) arg1 fullShare bx ∗ owns (c : Thread nD τ) arg2 fullShare bh ∗ owns (c : Thread nD τ) arg3 fullShare bc
            ∗ owns (c : Thread nD τ) arg4 fullShare wx ∗ owns (c : Thread nD τ) arg5 fullShare wh ∗ owns (c : Thread nD τ) arg6 fullShare bb
            ∗ owns (c : Thread nD τ) arg7 fullShare (blockOut bx bh bc wx wh bb)) -∗ K ⟨⟩))
      ⊢ wp frame (wpE (defs₀ (F := F)) Variants.none c none) E (cc0__lstm_kernel i arg1 harg1 arg2 harg2 arg3 harg3 arg4 harg4 arg5 harg5 arg6 harg6 arg7 harg7) K := by
  simp only [cc0__lstm_kernel_eq_skeleton]; unfold cc0__lstm_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (blockOut_cover _)

/-! ## The launch's proof data -/

/-- On core `c`: the arrays as the launch finds them; after the body at point `t` each input's buffer still at its block and
    the result's at `blockOut` of the six input blocks; nothing else is used, nothing is owed, all shares are full. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => blockOut (iblk m c 0 t) (iblk m c 1 t) (iblk m c 2 t) (iblk m c 3 t) (iblk m c 4 t) (iblk m c 5 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t
    = blockOut (iblk m c 0 t) (iblk m c 1 t) (iblk m c 2 t) (iblk m c 3 t) (iblk m c 4 t) (iblk m c 5 t) := by dsimp only [dats]

theorem before0 (c : Dev nD) (t : Fin cfg0.N) (d) : (dats m 0 c).before 0 t d = iblk m c 0 t :=
  before_in0_of m (dats m 0 c) (A_eq m c 0) (after0 m c) t d
theorem before1 (c : Dev nD) (t : Fin cfg0.N) (d) : (dats m 0 c).before 1 t d = iblk m c 1 t :=
  before_in1_of m (dats m 0 c) (A_eq m c 1) (after1 m c) t d
theorem before2 (c : Dev nD) (t : Fin cfg0.N) (d) : (dats m 0 c).before 2 t d = iblk m c 2 t :=
  before_in2_of m (dats m 0 c) (A_eq m c 2) (after2 m c) t d
theorem before3 (c : Dev nD) (t : Fin cfg0.N) (d) : (dats m 0 c).before 3 t d = iblk m c 3 t :=
  before_in3_of m (dats m 0 c) (A_eq m c 3) (after3 m c) t d
theorem before4 (c : Dev nD) (t : Fin cfg0.N) (d) : (dats m 0 c).before 4 t d = iblk m c 4 t :=
  before_in4_of m (dats m 0 c) (A_eq m c 4) (after4 m c) t d
theorem before5 (c : Dev nD) (t : Fin cfg0.N) (d) : (dats m 0 c).before 5 t d = iblk m c 5 t :=
  before_in5_of m (dats m 0 c) (A_eq m c 5) (after5 m c) t d

/-! ## The body at a point -/

/-- What the body is called with at point `t`: each window's current staging buffer at what the launch put there. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d)))

/-- What it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t))

/-- The body at any point: the inputs' buffers hold their blocks, so the body's triple applies; the rest passes through. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4, before5]
  rw [show (dats m 0 c).Φ t.succ = (dats m 0 c).Φ t.castSucc from rfl,
    show (dats m 0 c).owesAt () t.succ = (dats m 0 c).owesAt () t.castSucc from rfl,
    after0, after1, after2, after3, after4, after5, after6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel c Set.univ (grid0.coords t) _ _ _ _ _ _ _ _ _ _ _ _ _ _
    (iblk m c 0 t) (iblk m c 1 t) (iblk m c 2 t) (iblk m c 3 t) (iblk m c 4 t) (iblk m c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The body's obligation to the launch, at every point. -/
theorem body_obligation (c : Dev nD) : BodyObligation (dats (F := F) m 0 c) (defs₀ (F := F)) Variants.none () Set.univ := fun t => by
  rw [bigSep_W0, bigSep_W0]
  exact sound_body m c t

/-! ## The run -/

set_option backward.isDefEq.respectTransparency.types false in
/-- From any memory with zero counters, every weakly fair execution of @main terminates without a fault, and every final
    state has each array of the launch at what the blocks written back make of it and every other array as the launch
    found it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The program runs to its end and its fifteen arguments end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  frame_of m ρ (dats m) (A_eq m) (run_main m ρ)

end Cert.Kernel.Frame

end
-- ==== Proof.FrameIdeal.lean ====
/-
  The run of the program to its end, and what it leaves in memory.

  @main first forms, on the host, the two fused weight matrices — each the three gates' transposed weight matrices laid
  side by side, 1024 by 3072 — and the fused bias row, 1 by 3072, the sum of the two concatenated bias vectors. Then
  one launch over 64 grid points: point `t` is handed rows 256·t … 256·t + 255 of x, of h and of c, the whole of both fused
  matrices and of the bias row, and writes rows 256·t … 256·t + 255 of the result.
  Stated here: what the result's staging buffer holds after the body at a point (`blockOut`: the body stores once, over the
  whole buffer, the body's arithmetic of the six input blocks); the body's triple; and from it the run — every weakly fair
  execution terminates without a fault, the result array ends at the blocks written back, and every other array holds what
  it held when the launch began, so the fifteen arguments end unchanged. Everything is stated for any float instance.
-/
import proofs.«123593_j33921651704111_2_alg».proof.Proof.Gen.KernelIdeal.Launch
import proofs.«123593_j33921651704111_2_alg».proof.Proof.Gen.KernelIdeal.Skeleton
import proofs.«123593_j33921651704111_2_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Facts₀ Cert.KernelIdeal.Facts

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main up to the launch -/

/-- Core `c`'s arrays when the launch begins: the given memory after the fourteen host operations. -/
abbrev V (c : Dev nD) (b : Ref sig .tc) : Buf (Elt F) ((c : Thread nD τ).loc b) :=
  StableHlo.after hostOps0 (fun b => m (c, b)) b

/-- None of the host operations allocates. -/
theorem hostOps0_fresh : (hostOps0 : List (HloOp τ sig (Elt F))).Forall fun op => op.fresh = ∅ := by
  simp only [List.Forall]; repeat' constructor

/-- @main is the host operations followed by the launch. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- No host operation before the launch writes argument 0: the launch finds it as it was given. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.Forall, StableHlo.unary_writes, StableHlo.binary_writes, StableHlo.nary_writes,
      StableHlo.reshape_writes, Finset.mem_singleton]
    repeat' apply And.intro
    all_goals exact StableHlo.devRef_ne_of_ne (by decide)))
/-- No host operation before the launch writes argument 1: the launch finds it as it was given. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.Forall, StableHlo.unary_writes, StableHlo.binary_writes, StableHlo.nary_writes,
      StableHlo.reshape_writes, Finset.mem_singleton]
    repeat' apply And.intro
    all_goals exact StableHlo.devRef_ne_of_ne (by decide)))
/-- No host operation before the launch writes argument 2: the launch finds it as it was given. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.Forall, StableHlo.unary_writes, StableHlo.binary_writes, StableHlo.nary_writes,
      StableHlo.reshape_writes, Finset.mem_singleton]
    repeat' apply And.intro
    all_goals exact StableHlo.devRef_ne_of_ne (by decide)))
/-- No host operation before the launch writes argument 3: the launch finds it as it was given. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.Forall, StableHlo.unary_writes, StableHlo.binary_writes, StableHlo.nary_writes,
      StableHlo.reshape_writes, Finset.mem_singleton]
    repeat' apply And.intro
    all_goals exact StableHlo.devRef_ne_of_ne (by decide)))
/-- No host operation before the launch writes argument 4: the launch finds it as it was given. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.Forall, StableHlo.unary_writes, StableHlo.binary_writes, StableHlo.nary_writes,
      StableHlo.reshape_writes, Finset.mem_singleton]
    repeat' apply And.intro
    all_goals exact StableHlo.devRef_ne_of_ne (by decide)))
/-- No host operation before the launch writes argument 5: the launch finds it as it was given. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.Forall, StableHlo.unary_writes, StableHlo.binary_writes, StableHlo.nary_writes,
      StableHlo.reshape_writes, Finset.mem_singleton]
    repeat' apply And.intro
    all_goals exact StableHlo.devRef_ne_of_ne (by decide)))
/-- No host operation before the launch writes argument 6: the launch finds it as it was given. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.Forall, StableHlo.unary_writes, StableHlo.binary_writes, StableHlo.nary_writes,
      StableHlo.reshape_writes, Finset.mem_singleton]
    repeat' apply And.intro
    all_goals exact StableHlo.devRef_ne_of_ne (by decide)))
/-- No host operation before the launch writes argument 7: the launch finds it as it was given. -/
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, List.Forall, StableHlo.unary_writes, StableHlo.binary_writes, StableHlo.nary_writes,
      StableHlo.reshape_writes, Finset.mem_singleton]
    repeat' apply And.intro
    all_goals exact StableHlo.devRef_ne_of_ne (by decide)))
/-- No host operation before the launch writes argument 8: the launch finds it as it was given. -/
theorem V_main_arg8 (c : Dev nD) : V m c main_arg8 = m ((c : Thread nD τ).loc main_arg8) :=
  StableHlo.after_of_forall_not_mem (b := Proc.devRef .tc main_arg8) _ _ (List.forall_iff_forall_mem.mp (by
    simp only [hostOps0, List.Forall, StableHlo.unary_writes, StableHlo.binary_writes, StableHlo.nary_writes,
      StableHlo.reshape_writes, Finset.mem_singleton]
    repeat' apply And.intro
    all_goals exact StableHlo.devRef_ne_of_ne (by decide)))
/-- No host operation before the launch writes argument 9: the launch finds it as it was given. -/
theorem V_main_arg9 (c : Dev nD) : V m c main_arg9 = m ((c : Thread nD τ).loc main_arg9) :=
  StableHlo.after_of_forall_not_mem (b := Proc.devRef .tc main_arg9) _ _ (List.forall_iff_forall_mem.mp (by
    simp only [hostOps0, List.Forall, StableHlo.unary_writes, StableHlo.binary_writes, StableHlo.nary_writes,
      StableHlo.reshape_writes, Finset.mem_singleton]
    repeat' apply And.intro
    all_goals exact StableHlo.devRef_ne_of_ne (by decide)))
/-- No host operation before the launch writes argument 10: the launch finds it as it was given. -/
theorem V_main_arg10 (c : Dev nD) : V m c main_arg10 = m ((c : Thread nD τ).loc main_arg10) :=
  StableHlo.after_of_forall_not_mem (b := Proc.devRef .tc main_arg10) _ _ (List.forall_iff_forall_mem.mp (by
    simp only [hostOps0, List.Forall, StableHlo.unary_writes, StableHlo.binary_writes, StableHlo.nary_writes,
      StableHlo.reshape_writes, Finset.mem_singleton]
    repeat' apply And.intro
    all_goals exact StableHlo.devRef_ne_of_ne (by decide)))
/-- No host operation before the launch writes argument 11: the launch finds it as it was given. -/
theorem V_main_arg11 (c : Dev nD) : V m c main_arg11 = m ((c : Thread nD τ).loc main_arg11) :=
  StableHlo.after_of_forall_not_mem (b := Proc.devRef .tc main_arg11) _ _ (List.forall_iff_forall_mem.mp (by
    simp only [hostOps0, List.Forall, StableHlo.unary_writes, StableHlo.binary_writes, StableHlo.nary_writes,
      StableHlo.reshape_writes, Finset.mem_singleton]
    repeat' apply And.intro
    all_goals exact StableHlo.devRef_ne_of_ne (by decide)))
/-- No host operation before the launch writes argument 12: the launch finds it as it was given. -/
theorem V_main_arg12 (c : Dev nD) : V m c main_arg12 = m ((c : Thread nD τ).loc main_arg12) :=
  StableHlo.after_of_forall_not_mem (b := Proc.devRef .tc main_arg12) _ _ (List.forall_iff_forall_mem.mp (by
    simp only [hostOps0, List.Forall, StableHlo.unary_writes, StableHlo.binary_writes, StableHlo.nary_writes,
      StableHlo.reshape_writes, Finset.mem_singleton]
    repeat' apply And.intro
    all_goals exact StableHlo.devRef_ne_of_ne (by decide)))
/-- No host operation before the launch writes argument 13: the launch finds it as it was given. -/
theorem V_main_arg13 (c : Dev nD) : V m c main_arg13 = m ((c : Thread nD τ).loc main_arg13) :=
  StableHlo.after_of_forall_not_mem (b := Proc.devRef .tc main_arg13) _ _ (List.forall_iff_forall_mem.mp (by
    simp only [hostOps0, List.Forall, StableHlo.unary_writes, StableHlo.binary_writes, StableHlo.nary_writes,
      StableHlo.reshape_writes, Finset.mem_singleton]
    repeat' apply And.intro
    all_goals exact StableHlo.devRef_ne_of_ne (by decide)))
/-- No host operation before the launch writes argument 14: the launch finds it as it was given. -/
theorem V_main_arg14 (c : Dev nD) : V m c main_arg14 = m ((c : Thread nD τ).loc main_arg14) :=
  StableHlo.after_of_forall_not_mem (b := Proc.devRef .tc main_arg14) _ _ (List.forall_iff_forall_mem.mp (by
    simp only [hostOps0, List.Forall, StableHlo.unary_writes, StableHlo.binary_writes, StableHlo.nary_writes,
      StableHlo.reshape_writes, Finset.mem_singleton]
    repeat' apply And.intro
    all_goals exact StableHlo.devRef_ne_of_ne (by decide)))

/-! ## The windows' blocks -/

/-- Window `w`'s block at point `t`, read off its array as the launch finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! Each input window's current staging buffer holds its block at every point, whether the point fetched it or an
    earlier one did (the three resident windows are fetched at the first point only, and their block never moves). -/
theorem before_in0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before_in1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before_in2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before_in3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before_in4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
theorem before_in5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)

/-! ## The arguments end unchanged -/

/-- In a final state where every array of the launch holds what the blocks written back make of it and every other
    array what the launch found: the fifteen arguments hold what they were given. The three row arrays are input windows'
    arrays, never written back; the other twelve are read only by the host operations. -/
theorem args_kept (dats : (p : Fin 1) → (c : Dev nD) → Dat τ (Elt F) Unit ℕ (UR sig nD τ) ℕ (cfgs p) c)
    (hA : ∀ c w, (dats 0 c).A w = V m c (Pipeline.arrRef spec0 w))
    (r : PUnit × MemSt nD τ sig (Elt F)) (h : Pipeline.FramePost cfgs dats 0 (V m) r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14) :=
  ⟨((h c).1 0).trans (((dats 0 c).arrAt_in 0 rfl _).trans ((hA c 0).trans (V_main_arg0 m c))),
    ((h c).1 1).trans (((dats 0 c).arrAt_in 1 rfl _).trans ((hA c 1).trans (V_main_arg1 m c))),
    ((h c).1 2).trans (((dats 0 c).arrAt_in 2 rfl _).trans ((hA c 2).trans (V_main_arg2 m c))),
    ((h c).2 main_arg3 (Pipeline.mem_restRefs_of main_arg3 (by decide) (by decide))).trans (V_main_arg3 m c),
    ((h c).2 main_arg4 (Pipeline.mem_restRefs_of main_arg4 (by decide) (by decide))).trans (V_main_arg4 m c),
    ((h c).2 main_arg5 (Pipeline.mem_restRefs_of main_arg5 (by decide) (by decide))).trans (V_main_arg5 m c),
    ((h c).2 main_arg6 (Pipeline.mem_restRefs_of main_arg6 (by decide) (by decide))).trans (V_main_arg6 m c),
    ((h c).2 main_arg7 (Pipeline.mem_restRefs_of main_arg7 (by decide) (by decide))).trans (V_main_arg7 m c),
    ((h c).2 main_arg8 (Pipeline.mem_restRefs_of main_arg8 (by decide) (by decide))).trans (V_main_arg8 m c),
    ((h c).2 main_arg9 (Pipeline.mem_restRefs_of main_arg9 (by decide) (by decide))).trans (V_main_arg9 m c),
    ((h c).2 main_arg10 (Pipeline.mem_restRefs_of main_arg10 (by decide) (by decide))).trans (V_main_arg10 m c),
    ((h c).2 main_arg11 (Pipeline.mem_restRefs_of main_arg11 (by decide) (by decide))).trans (V_main_arg11 m c),
    ((h c).2 main_arg12 (Pipeline.mem_restRefs_of main_arg12 (by decide) (by decide))).trans (V_main_arg12 m c),
    ((h c).2 main_arg13 (Pipeline.mem_restRefs_of main_arg13 (by decide) (by decide))).trans (V_main_arg13 m c),
    ((h c).2 main_arg14 (Pipeline.mem_restRefs_of main_arg14 (by decide) (by decide))).trans (V_main_arg14 m c)⟩

/-- So a run to such a state is a run after which the arguments are unchanged. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  (θ_run defs _ _).mono (fun r h c => args_kept m dats hA r h c) h

/-! ## The body's accesses -/

/-- A whole 256 by 1024 staging buffer. -/
abbrev rRows : Rect S256x1024 := Rect.unit (s := S256x1024) ![0, 0] S256x1024.size Gen.inb_S256x1024_S256x1024_0_0
/-- A whole 1024 by 3072 staging buffer. -/
abbrev rFused : Rect S1024x3072 := Rect.unit (s := S1024x3072) ![0, 0] S1024x3072.size Gen.inb_S1024x3072_S1024x3072_0_0
/-- The whole 1 by 3072 staging buffer. -/
abbrev rBias : Rect S1x3072 := Rect.unit (s := S1x3072) ![0, 0] S1x3072.size Gen.inb_S1x3072_S1x3072_0_0

/-! ## What the body leaves in the result's staging buffer -/

/-- The result window's staging buffer after the body, from the six input blocks (rows of x, of h, of c; the two fused
    matrices; the bias row): its one store, which is the body's arithmetic of what it loaded. -/
def blockOut (bx bh bc : Vec F S256x1024 .f32) (wx wh : Vec F S1024x3072 .bf16) (bb : Vec F S1x3072 .f32) : Vec F S256x1024 .f32 :=
  View.canon [⟨rRows, k0_pay1 (View.ld bx rRows) (View.ld bh rRows) (View.ld wx rFused) (View.ld wh rFused) (View.ld bb rBias) (View.ld bc rRows)⟩]

/-- The one store covers the buffer. -/
theorem blockOut_cover (p0 : Vec F S256x1024 .f32) (y : S256x1024.Idx) :
    ∃ pc ∈ ([⟨rRows, p0⟩] : List (View.Piece (Elt F) S256x1024 .f32)), y ∈ pc.1.set :=
  View.cover_of_tiled [⟨rRows, p0⟩] S256x1024.size (by rfl) y

/-! ## The body's triple -/

set_option maxHeartbeats 1000000 in
/-- The body on whole staging buffers — the six inputs' at known contents, the result's at anything — runs to the end with
    the inputs' buffers as they were and the result's at `blockOut` of the inputs'. -/
theorem sound_kernel (c : Dev nD) (E : Set ℕ) (i : grid0.Coords)
    (arg1 : Memref sig .tc .vmem S256x1024 .f32) (harg1 : arg1.IsWhole) (arg2 : Memref sig .tc .vmem S256x1024 .f32) (harg2 : arg2.IsWhole)
    (arg3 : Memref sig .tc .vmem S256x1024 .f32) (harg3 : arg3.IsWhole) (arg4 : Memref sig .tc .vmem S1024x3072 .bf16) (harg4 : arg4.IsWhole)
    (arg5 : Memref sig .tc .vmem S1024x3072 .bf16) (harg5 : arg5.IsWhole) (arg6 : Memref sig .tc .vmem S1x3072 .f32) (harg6 : arg6.IsWhole)
    (arg7 : Memref sig .tc .vmem S256x1024 .f32) (harg7 : arg7.IsWhole)
    (bx bh bc : Vec F S256x1024 .f32) (wx wh : Vec F S1024x3072 .bf16) (bb : Vec F S1x3072 .f32) (K : PUnit → sProp 𝕄) :
    iprop(owns (c : Thread nD τ) arg1 fullShare bx ∗ owns (c : Thread nD τ) arg2 fullShare bh ∗ owns (c : Thread nD τ) arg3 fullShare bc
        ∗ owns (c : Thread nD τ) arg4 fullShare wx ∗ owns (c : Thread nD τ) arg5 fullShare wh ∗ owns (c : Thread nD τ) arg6 fullShare bb
        ∗ (∃ d, owns (c : Thread nD τ) arg7 fullShare d)
        ∗ (iprop(owns (c : Thread nD τ) arg1 fullShare bx ∗ owns (c : Thread nD τ) arg2 fullShare bh ∗ owns (c : Thread nD τ) arg3 fullShare bc
            ∗ owns (c : Thread nD τ) arg4 fullShare wx ∗ owns (c : Thread nD τ) arg5 fullShare wh ∗ owns (c : Thread nD τ) arg6 fullShare bb
            ∗ owns (c : Thread nD τ) arg7 fullShare (blockOut bx bh bc wx wh bb)) -∗ K ⟨⟩))
      ⊢ wp frame (wpE (defs₀ (F := F)) Variants.none c none) E (cc0__lstm_kernel i arg1 harg1 arg2 harg2 arg3 harg3 arg4 harg4 arg5 harg5 arg6 harg6 arg7 harg7) K := by
  simp only [cc0__lstm_kernel_eq_skeleton]; unfold cc0__lstm_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (blockOut_cover _)

/-! ## The launch's proof data -/

/-- On core `c`: the arrays as the launch finds them; after the body at point `t` each input's buffer still at its block and
    the result's at `blockOut` of the six input blocks; nothing else is used, nothing is owed, all shares are full. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => blockOut (iblk m c 0 t) (iblk m c 1 t) (iblk m c 2 t) (iblk m c 3 t) (iblk m c 4 t) (iblk m c 5 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t
    = blockOut (iblk m c 0 t) (iblk m c 1 t) (iblk m c 2 t) (iblk m c 3 t) (iblk m c 4 t) (iblk m c 5 t) := by dsimp only [dats]

theorem before0 (c : Dev nD) (t : Fin cfg0.N) (d) : (dats m 0 c).before 0 t d = iblk m c 0 t :=
  before_in0_of m (dats m 0 c) (A_eq m c 0) (after0 m c) t d
theorem before1 (c : Dev nD) (t : Fin cfg0.N) (d) : (dats m 0 c).before 1 t d = iblk m c 1 t :=
  before_in1_of m (dats m 0 c) (A_eq m c 1) (after1 m c) t d
theorem before2 (c : Dev nD) (t : Fin cfg0.N) (d) : (dats m 0 c).before 2 t d = iblk m c 2 t :=
  before_in2_of m (dats m 0 c) (A_eq m c 2) (after2 m c) t d
theorem before3 (c : Dev nD) (t : Fin cfg0.N) (d) : (dats m 0 c).before 3 t d = iblk m c 3 t :=
  before_in3_of m (dats m 0 c) (A_eq m c 3) (after3 m c) t d
theorem before4 (c : Dev nD) (t : Fin cfg0.N) (d) : (dats m 0 c).before 4 t d = iblk m c 4 t :=
  before_in4_of m (dats m 0 c) (A_eq m c 4) (after4 m c) t d
theorem before5 (c : Dev nD) (t : Fin cfg0.N) (d) : (dats m 0 c).before 5 t d = iblk m c 5 t :=
  before_in5_of m (dats m 0 c) (A_eq m c 5) (after5 m c) t d

/-! ## The body at a point -/

/-- What the body is called with at point `t`: each window's current staging buffer at what the launch put there. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d)))

/-- What it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t))

/-- The body at any point: the inputs' buffers hold their blocks, so the body's triple applies; the rest passes through. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4, before5]
  rw [show (dats m 0 c).Φ t.succ = (dats m 0 c).Φ t.castSucc from rfl,
    show (dats m 0 c).owesAt () t.succ = (dats m 0 c).owesAt () t.castSucc from rfl,
    after0, after1, after2, after3, after4, after5, after6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel c Set.univ (grid0.coords t) _ _ _ _ _ _ _ _ _ _ _ _ _ _
    (iblk m c 0 t) (iblk m c 1 t) (iblk m c 2 t) (iblk m c 3 t) (iblk m c 4 t) (iblk m c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The body's obligation to the launch, at every point. -/
theorem body_obligation (c : Dev nD) : BodyObligation (dats (F := F) m 0 c) (defs₀ (F := F)) Variants.none () Set.univ := fun t => by
  rw [bigSep_W0, bigSep_W0]
  exact sound_body m c t

/-! ## The run -/

set_option backward.isDefEq.respectTransparency.types false in
/-- From any memory with zero counters, every weakly fair execution of @main terminates without a fault, and every final
    state has each array of the launch at what the blocks written back make of it and every other array as the launch
    found it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The program runs to its end and its fifteen arguments end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  frame_of m ρ (dats m) (A_eq m) (run_main m ρ)

end Cert.KernelIdeal.Frame

end
-- ==== Proof.Payload.lean ====
/-
  The body's arithmetic at one entry of the result block.

  At a grid point the body holds a 256-row block of x, of h and of c, the two fused weight matrices (1024 by 3072: the
  three gates side by side, 1024 columns each) and the fused bias row. For row `p` of the block and fused column `n` it forms
      fused(p, n) = (Σₖ x[p, k] · Wx[k, n]  +  Σₖ h[p, k] · Wh[k, n])  +  b[0, n]
  — the two matrix products, accumulated from zero, are plain sums over the 1024 contracted entries, and the narrowing of
  the operands to a shorter float format changes nothing on the extended reals — and stores, at row `p` and unit `q`,
      σ(fused(p, 1024 + q)) · c[p, q]  +  σ(fused(p, q)) · tanh(fused(p, 2048 + q)):
  columns 0…1023 are the input gate, 1024…2047 the forget gate, 2048…3071 the candidate.
-/
import proofs.«123593_j33921651704111_2_alg».proof.Proof.Gen.KernelIdeal.Skeleton
import Idealize.ShloMosaic.Lib.ValueIdx
import Idealize.ShloMosaic.Lib.Pipeline.Value
import Idealize.ShloMosaic.PureOps.Ideal.Laws

noncomputable section

open scoped BigOperators

namespace Cert.KernelIdeal.CellValue

open Cert.KernelIdeal Cert.KernelIdeal.Gen Idealize.ShloMosaic Idealize.ShloMosaic.ValueIdx

/-! ## A matrix product of a row block with a fused matrix, at an entry -/

theorem lhs_row (i : S256x3072.Idx) (q : dot_S256x1024_S1024x3072_S256x3072_1_0_0_1_n_n.contr.Idx) :
    (dot_S256x1024_S1024x3072_S256x3072_1_0_0_1_n_n.lhsIdx i q 0).val = (i 0).val := by
  unfold DotDims.lhsIdx
  rw [dif_neg (show ¬(0 : Fin S256x1024.rank) ∈ dot_S256x1024_S1024x3072_S256x3072_1_0_0_1_n_n.lhsBatch by decide), dif_pos (show (0 : Fin S256x1024.rank) ∈ dot_S256x1024_S1024x3072_S256x3072_1_0_0_1_n_n.lhsNonContracting by decide)]
  rfl
theorem lhs_contr (i : S256x3072.Idx) (q : dot_S256x1024_S1024x3072_S256x3072_1_0_0_1_n_n.contr.Idx) :
    (dot_S256x1024_S1024x3072_S256x3072_1_0_0_1_n_n.lhsIdx i q 1).val = (q ⟨0, by decide⟩).val :=
  dot_S256x1024_S1024x3072_S256x3072_1_0_0_1_n_n.lhsIdx_val_of_single rfl i q
theorem rhs_contr (i : S256x3072.Idx) (q : dot_S256x1024_S1024x3072_S256x3072_1_0_0_1_n_n.contr.Idx) :
    (dot_S256x1024_S1024x3072_S256x3072_1_0_0_1_n_n.rhsIdx i q 0).val = (q ⟨0, by decide⟩).val :=
  dot_S256x1024_S1024x3072_S256x3072_1_0_0_1_n_n.rhsIdx_val_of_single rfl i q
theorem rhs_col (i : S256x3072.Idx) (q : dot_S256x1024_S1024x3072_S256x3072_1_0_0_1_n_n.contr.Idx) :
    (dot_S256x1024_S1024x3072_S256x3072_1_0_0_1_n_n.rhsIdx i q 1).val = (i 1).val := by
  unfold DotDims.rhsIdx
  rw [dif_neg (show ¬(1 : Fin S1024x3072.rank) ∈ dot_S256x1024_S1024x3072_S256x3072_1_0_0_1_n_n.rhsBatch by decide), dif_pos (show (1 : Fin S1024x3072.rank) ∈ dot_S256x1024_S1024x3072_S256x3072_1_0_0_1_n_n.rhsNonContracting by decide)]
  rfl

/-- The product accumulated from zero, at row `p` and column `n`: the sum over the 1024 contracted entries. -/
theorem product_apply (l : FVec Ideal S256x1024 .bf16) (w : FVec Ideal S1024x3072 .bf16) (p : Fin 256) (n : Fin 3072) :
    matmul dot_S256x1024_S1024x3072_S256x3072_1_0_0_1_n_n none l w (constant (F := Ideal) S256x3072 .f32 0x00000000#32) (ix2 p n)
      = ∑ k : Fin 1024, l (ix2 p k) * w (ix2 k n) := by
  simp only [matmul]
  rw [Ideal.matmul_constant_zero_apply, ← Equiv.sum_comp (contrEquiv1 dot_S256x1024_S1024x3072_S256x3072_1_0_0_1_n_n 1024 rfl rfl).symm]
  refine Finset.sum_congr rfl fun k _ => ?_
  have hk := contrEquiv1_symm_val dot_S256x1024_S1024x3072_S256x3072_1_0_0_1_n_n 1024 rfl rfl k
  have el : dot_S256x1024_S1024x3072_S256x3072_1_0_0_1_n_n.lhsIdx (ix2 p n) ((contrEquiv1 dot_S256x1024_S1024x3072_S256x3072_1_0_0_1_n_n 1024 rfl rfl).symm k) = ix2 p k := funext fun a => Fin.ext (by
    match a with
    | ⟨0, _⟩ => exact lhs_row _ _
    | ⟨1, _⟩ => exact (lhs_contr _ _).trans hk)
  have er : dot_S256x1024_S1024x3072_S256x3072_1_0_0_1_n_n.rhsIdx (ix2 p n) ((contrEquiv1 dot_S256x1024_S1024x3072_S256x3072_1_0_0_1_n_n 1024 rfl rfl).symm k) = ix2 k n := funext fun a => Fin.ext (by
    match a with
    | ⟨0, _⟩ => exact (rhs_contr _ _).trans hk
    | ⟨1, _⟩ => exact rhs_col _ _)
  rw [el, er]

/-! ## The fused pre-activations -/

/-- The fused pre-activation at row `p` of the block and fused column `n`. -/
def fusedPre (bx bh : Vec Ideal S256x1024 .f32) (wx wh : Vec Ideal S1024x3072 .bf16) (bb : Vec Ideal S1x3072 .f32)
    (p : Fin 256) (n : Fin 3072) : EReal :=
  ((∑ k : Fin 1024, bx (ix2 p k) * wx (ix2 k n)) + (∑ k : Fin 1024, bh (ix2 p k) * wh (ix2 k n))) + bb (ix2 (0 : Fin 1) n)

/-- The 256 by 3072 array the body slices its three gates from. -/
def fusedVec (v0 v2 : Vec Ideal S256x1024 .f32) (v4 v6 : Vec Ideal S1024x3072 .bf16) (v11 : Vec Ideal S1x3072 .f32) : FVec Ideal S256x3072 .f32 :=
  addf (addf
      (matmul dot_S256x1024_S1024x3072_S256x3072_1_0_0_1_n_n none (truncf .bf16 v0 Gen.bitsLt_bf16_f32 : FVec Ideal S256x1024 .bf16)
        (shapeCast S1024x3072 v4 Gen.shapeCasts_S1024x3072_S1024x3072 : FVec Ideal S1024x3072 .bf16) (constant S256x3072 .f32 0x00000000#32))
      (matmul dot_S256x1024_S1024x3072_S256x3072_1_0_0_1_n_n none (truncf .bf16 v2 Gen.bitsLt_bf16_f32 : FVec Ideal S256x1024 .bf16)
        (shapeCast S1024x3072 v6 Gen.shapeCasts_S1024x3072_S1024x3072 : FVec Ideal S1024x3072 .bf16) (constant S256x3072 .f32 0x00000000#32)))
    (broadcastTo S256x3072 (shapeCast S1x3072 v11 Gen.shapeCasts_S1x3072_S1x3072 : FVec Ideal S1x3072 .f32) Gen.broadcasts_S1x3072_S256x3072)

/-- The bias row spread over the 256 rows, at an entry: the row's entry in that column. -/
theorem bias_spread_apply (b : FVec Ideal S1x3072 .f32) (p : Fin 256) (n : Fin 3072) :
    broadcastTo S256x3072 b Gen.broadcasts_S1x3072_S256x3072 (ix2 p n) = b (ix2 (0 : Fin 1) n) :=
  broadcastTo_apply b _ (ix2 p n) (ix2 (0 : Fin 1) n) (fun a => by
    match a with
    | ⟨0, _⟩ => rfl
    | ⟨1, _⟩ => rfl)

theorem fusedVec_apply (v0 v2 : Vec Ideal S256x1024 .f32) (v4 v6 : Vec Ideal S1024x3072 .bf16) (v11 : Vec Ideal S1x3072 .f32)
    (p : Fin 256) (n : Fin 3072) : fusedVec v0 v2 v4 v6 v11 (ix2 p n) = fusedPre v0 v2 v4 v6 v11 p n := by
  unfold fusedVec fusedPre
  rw [addf_apply, addf_apply, product_apply, product_apply, bias_spread_apply, shapeCast_self, shapeCast_self, shapeCast_self]
  rfl

/-- A gate's 1024 columns cut out of the fused array, at an entry. -/
theorem gate_i_apply (g : FVec Ideal S256x3072 .f32) (p : Fin 256) (q : Fin 1024) :
    extractStridedSlice S256x1024 ![0, 0] g Gen.slices_S256x3072_o0_0_S256x1024 (ix2 p q) = g (ix2 p ⟨q.val, by omega⟩) :=
  extractStridedSlice_apply _ g _ (ix2 p q) (ix2 p ⟨q.val, by omega⟩) (fun a => by
    match a with
    | ⟨0, _⟩ => show p.val = 0 + p.val; omega
    | ⟨1, _⟩ => show q.val = 0 + q.val; omega)
theorem gate_f_apply (g : FVec Ideal S256x3072 .f32) (p : Fin 256) (q : Fin 1024) :
    extractStridedSlice S256x1024 ![0, 1024] g Gen.slices_S256x3072_o0_1024_S256x1024 (ix2 p q) = g (ix2 p ⟨1024 + q.val, by omega⟩) :=
  extractStridedSlice_apply _ g _ (ix2 p q) (ix2 p ⟨1024 + q.val, by omega⟩) (fun a => by
    match a with
    | ⟨0, _⟩ => show p.val = 0 + p.val; omega
    | ⟨1, _⟩ => show 1024 + q.val = 1024 + q.val; rfl)
theorem gate_g_apply (g : FVec Ideal S256x3072 .f32) (p : Fin 256) (q : Fin 1024) :
    extractStridedSlice S256x1024 ![0, 2048] g Gen.slices_S256x3072_o0_2048_S256x1024 (ix2 p q) = g (ix2 p ⟨2048 + q.val, by omega⟩) :=
  extractStridedSlice_apply _ g _ (ix2 p q) (ix2 p ⟨2048 + q.val, by omega⟩) (fun a => by
    match a with
    | ⟨0, _⟩ => show p.val = 0 + p.val; omega
    | ⟨1, _⟩ => show 2048 + q.val = 2048 + q.val; rfl)

/-! ## The stored value at an entry -/

/-- The body's stored value is the gate arithmetic of the fused array and the block of c. -/
theorem payload_eq (v0 v2 : Vec Ideal S256x1024 .f32) (v4 v6 : Vec Ideal S1024x3072 .bf16) (v11 : Vec Ideal S1x3072 .f32) (v21 : Vec Ideal S256x1024 .f32) :
    k0_pay1 (F := Ideal) v0 v2 v4 v6 v11 v21
      = addf (mulf (logistic (extractStridedSlice S256x1024 ![0, 1024] (fusedVec v0 v2 v4 v6 v11) Gen.slices_S256x3072_o0_1024_S256x1024)) v21)
          (mulf (logistic (extractStridedSlice S256x1024 ![0, 0] (fusedVec v0 v2 v4 v6 v11) Gen.slices_S256x3072_o0_0_S256x1024))
            (tanh (extractStridedSlice S256x1024 ![0, 2048] (fusedVec v0 v2 v4 v6 v11) Gen.slices_S256x3072_o0_2048_S256x1024))) := rfl

/-- At row `p`, unit `q` of the block: forget gate times the old state plus input gate times candidate. -/
theorem payload_apply (v0 v2 : Vec Ideal S256x1024 .f32) (v4 v6 : Vec Ideal S1024x3072 .bf16) (v11 : Vec Ideal S1x3072 .f32) (v21 : Vec Ideal S256x1024 .f32)
    (p : Fin 256) (q : Fin 1024) :
    k0_pay1 (F := Ideal) v0 v2 v4 v6 v11 v21 (ix2 p q)
      = Ideal.logistic (fusedPre v0 v2 v4 v6 v11 p ⟨1024 + q.val, by omega⟩) * v21 (ix2 p q)
        + Ideal.logistic (fusedPre v0 v2 v4 v6 v11 p ⟨q.val, by omega⟩) * Ideal.tanh (fusedPre v0 v2 v4 v6 v11 p ⟨2048 + q.val, by omega⟩) := by
  rw [payload_eq, addf_apply, mulf_apply, mulf_apply]
  show Ideal.logistic (extractStridedSlice S256x1024 ![0, 1024] (fusedVec v0 v2 v4 v6 v11) Gen.slices_S256x3072_o0_1024_S256x1024 (ix2 p q)) * v21 (ix2 p q)
      + Ideal.logistic (extractStridedSlice S256x1024 ![0, 0] (fusedVec v0 v2 v4 v6 v11) Gen.slices_S256x3072_o0_0_S256x1024 (ix2 p q))
        * Ideal.tanh (extractStridedSlice S256x1024 ![0, 2048] (fusedVec v0 v2 v4 v6 v11) Gen.slices_S256x3072_o0_2048_S256x1024 (ix2 p q)) = _
  rw [gate_f_apply, gate_i_apply, gate_g_apply, fusedVec_apply, fusedVec_apply, fusedVec_apply]

end Cert.KernelIdeal.CellValue

end
-- ==== Proof.HostPrefix.lean ====
/-
  The arrays the host forms before the launch, entry by entry.

  The fused weight matrix of the x side is the three gates' weight matrices, each transposed, laid side by side: its entry
  at contracted index `k` and fused column `1024·g + j` is gate `g`'s weight at unit `j`, feature `k`. The same for the h side.
  The fused bias row at column `1024·g + j` is the sum of gate `g`'s two biases at unit `j`. The narrowing of the fused
  matrices to a shorter float format changes nothing on the extended reals.
-/
import proofs.«123593_j33921651704111_2_alg».proof.Proof.FrameIdeal
import Idealize.ShloMosaic.Lib.StableHlo.Run
import Idealize.ShloMosaic.Lib.Pipeline.Value
import Idealize.ShloMosaic.Lib.ValueIdx

noncomputable section

namespace Cert.KernelIdeal.CellValue

open Cert.KernelIdeal Cert.KernelIdeal.Gen Cert.KernelIdeal.Frame
open Idealize.ShloMosaic Idealize.ShloMosaic.ValueIdx Idealize.ShloMosaic.TcCoe Idealize.SL.Sem Idealize.ShloMosaic.StableHlo

/-! ## Three transposed matrices side by side -/

/-- The three matrices, each transposed, joined along the columns: 1024 by 3072. -/
def fusedMatrix (W0 W1 W2 : FVec Ideal S1024x1024 .f32) : FVec Ideal S1024x3072 .f32 :=
  concatenate S1024x3072 1 [⟨S1024x1024, transpose S1024x1024 [1, 0] W0 Gen.transposes_S1024x1024_S1024x1024_1_0⟩, ⟨S1024x1024, transpose S1024x1024 [1, 0] W1 Gen.transposes_S1024x1024_S1024x1024_1_0⟩,
    ⟨S1024x1024, transpose S1024x1024 [1, 0] W2 Gen.transposes_S1024x1024_S1024x1024_1_0⟩] Gen.concatenates_S1024x1024_S1024x1024_S1024x1024_S1024x3072_d1

/-- Fused column j is the first matrix's row j. -/
theorem fusedMatrix_apply0 (W0 W1 W2 : FVec Ideal S1024x1024 .f32) (k j : Fin 1024) :
    fusedMatrix W0 W1 W2 (ix2 k ⟨j.val, by omega⟩) = W0 (ix2 j k) := by
  unfold fusedMatrix
  rw [concatenate_apply_piece (1 : Fin S1024x3072.rank) _ _ (ix2 k (⟨j.val, by omega⟩ : Fin 3072)) 0 (by show 0 < 3; omega) S1024x1024
    (transpose S1024x1024 [1, 0] W0 Gen.transposes_S1024x1024_S1024x1024_1_0) rfl rfl 0 rfl (ix2 k j)
    (fun b => by
      match b with
      | ⟨0, _⟩ => exact fun _ => rfl
      | ⟨1, _⟩ => exact fun h => absurd rfl h)
    (Nat.zero_add _)]
  exact transpose_apply _ W0 _ (ix2 k j) (ix2 j k) (fun b => by
    match b with
    | ⟨0, _⟩ => rfl
    | ⟨1, _⟩ => rfl)

/-- Fused column 1024 + j is the second matrix's row j. -/
theorem fusedMatrix_apply1 (W0 W1 W2 : FVec Ideal S1024x1024 .f32) (k j : Fin 1024) :
    fusedMatrix W0 W1 W2 (ix2 k ⟨1024 + j.val, by omega⟩) = W1 (ix2 j k) := by
  unfold fusedMatrix
  rw [concatenate_apply_piece (1 : Fin S1024x3072.rank) _ _ (ix2 k (⟨1024 + j.val, by omega⟩ : Fin 3072)) 1 (by show 1 < 3; omega) S1024x1024
    (transpose S1024x1024 [1, 0] W1 Gen.transposes_S1024x1024_S1024x1024_1_0) rfl rfl 1024 rfl (ix2 k j)
    (fun b => by
      match b with
      | ⟨0, _⟩ => exact fun _ => rfl
      | ⟨1, _⟩ => exact fun h => absurd rfl h)
    rfl]
  exact transpose_apply _ W1 _ (ix2 k j) (ix2 j k) (fun b => by
    match b with
    | ⟨0, _⟩ => rfl
    | ⟨1, _⟩ => rfl)

/-- Fused column 2048 + j is the third matrix's row j. -/
theorem fusedMatrix_apply2 (W0 W1 W2 : FVec Ideal S1024x1024 .f32) (k j : Fin 1024) :
    fusedMatrix W0 W1 W2 (ix2 k ⟨2048 + j.val, by omega⟩) = W2 (ix2 j k) := by
  unfold fusedMatrix
  rw [concatenate_apply_piece (1 : Fin S1024x3072.rank) _ _ (ix2 k (⟨2048 + j.val, by omega⟩ : Fin 3072)) 2 (by show 2 < 3; omega) S1024x1024
    (transpose S1024x1024 [1, 0] W2 Gen.transposes_S1024x1024_S1024x1024_1_0) rfl rfl 2048 rfl (ix2 k j)
    (fun b => by
      match b with
      | ⟨0, _⟩ => exact fun _ => rfl
      | ⟨1, _⟩ => exact fun h => absurd rfl h)
    rfl]
  exact transpose_apply _ W2 _ (ix2 k j) (ix2 j k) (fun b => by
    match b with
    | ⟨0, _⟩ => rfl
    | ⟨1, _⟩ => rfl)

/-! ## The two joined bias vectors, added, as a row -/

/-- The two triples of bias vectors, each joined end to end, added, and read as one row of 3072. -/
def fusedBias (a0 a1 a2 b0 b1 b2 : FVec Ideal S1024 .f32) : FVec Ideal S1x3072 .f32 :=
  shapeCast S1x3072 (addf (concatenate S3072 0 [⟨S1024, a0⟩, ⟨S1024, a1⟩, ⟨S1024, a2⟩] Gen.concatenates_S1024_S1024_S1024_S3072_d0)
    (concatenate S3072 0 [⟨S1024, b0⟩, ⟨S1024, b1⟩, ⟨S1024, b2⟩] Gen.concatenates_S1024_S1024_S1024_S3072_d0)) Gen.shapeCasts_S3072_S1x3072

/-- Fused bias column j: the first pair of bias vectors at j, added. -/
theorem fusedBias_apply0 (a0 a1 a2 b0 b1 b2 : FVec Ideal S1024 .f32) (j : Fin 1024) :
    fusedBias a0 a1 a2 b0 b1 b2 (ix2 (0 : Fin 1) ⟨j.val, by omega⟩) = a0 (ix1 j) + b0 (ix1 j) := by
  unfold fusedBias
  rw [shapeCast_apply _ _ (ix2 (0 : Fin 1) (⟨j.val, by omega⟩ : Fin 3072)) (ix1 (⟨j.val, by omega⟩ : Fin 3072))
    (by rw [Shape.rowMajor_val_one, Shape.rowMajor_val_two]; show j.val = 0 * 3072 + j.val; omega)]
  rw [addf_apply]
  rw [concatenate_apply_piece (0 : Fin S3072.rank) _ _ (ix1 (⟨j.val, by omega⟩ : Fin 3072)) 0 (by show 0 < 3; omega) S1024 a0 rfl rfl 0 rfl (ix1 j)
      (fun b => by
        match b with
        | ⟨0, _⟩ => exact fun h => absurd rfl h)
      (Nat.zero_add _),
    concatenate_apply_piece (0 : Fin S3072.rank) _ _ (ix1 (⟨j.val, by omega⟩ : Fin 3072)) 0 (by show 0 < 3; omega) S1024 b0 rfl rfl 0 rfl (ix1 j)
      (fun b => by
        match b with
        | ⟨0, _⟩ => exact fun h => absurd rfl h)
      (Nat.zero_add _)]

/-- Fused bias column 1024 + j: the second pair of bias vectors at j, added. -/
theorem fusedBias_apply1 (a0 a1 a2 b0 b1 b2 : FVec Ideal S1024 .f32) (j : Fin 1024) :
    fusedBias a0 a1 a2 b0 b1 b2 (ix2 (0 : Fin 1) ⟨1024 + j.val, by omega⟩) = a1 (ix1 j) + b1 (ix1 j) := by
  unfold fusedBias
  rw [shapeCast_apply _ _ (ix2 (0 : Fin 1) (⟨1024 + j.val, by omega⟩ : Fin 3072)) (ix1 (⟨1024 + j.val, by omega⟩ : Fin 3072))
    (by rw [Shape.rowMajor_val_one, Shape.rowMajor_val_two]; show 1024 + j.val = 0 * 3072 + (1024 + j.val); omega)]
  rw [addf_apply]
  rw [concatenate_apply_piece (0 : Fin S3072.rank) _ _ (ix1 (⟨1024 + j.val, by omega⟩ : Fin 3072)) 1 (by show 1 < 3; omega) S1024 a1 rfl rfl 1024 rfl (ix1 j)
      (fun b => by
        match b with
        | ⟨0, _⟩ => exact fun h => absurd rfl h)
      rfl,
    concatenate_apply_piece (0 : Fin S3072.rank) _ _ (ix1 (⟨1024 + j.val, by omega⟩ : Fin 3072)) 1 (by show 1 < 3; omega) S1024 b1 rfl rfl 1024 rfl (ix1 j)
      (fun b => by
        match b with
        | ⟨0, _⟩ => exact fun h => absurd rfl h)
      rfl]

/-- Fused bias column 2048 + j: the third pair of bias vectors at j, added. -/
theorem fusedBias_apply2 (a0 a1 a2 b0 b1 b2 : FVec Ideal S1024 .f32) (j : Fin 1024) :
    fusedBias a0 a1 a2 b0 b1 b2 (ix2 (0 : Fin 1) ⟨2048 + j.val, by omega⟩) = a2 (ix1 j) + b2 (ix1 j) := by
  unfold fusedBias
  rw [shapeCast_apply _ _ (ix2 (0 : Fin 1) (⟨2048 + j.val, by omega⟩ : Fin 3072)) (ix1 (⟨2048 + j.val, by omega⟩ : Fin 3072))
    (by rw [Shape.rowMajor_val_one, Shape.rowMajor_val_two]; show 2048 + j.val = 0 * 3072 + (2048 + j.val); omega)]
  rw [addf_apply]
  rw [concatenate_apply_piece (0 : Fin S3072.rank) _ _ (ix1 (⟨2048 + j.val, by omega⟩ : Fin 3072)) 2 (by show 2 < 3; omega) S1024 a2 rfl rfl 2048 rfl (ix1 j)
      (fun b => by
        match b with
        | ⟨0, _⟩ => exact fun h => absurd rfl h)
      rfl,
    concatenate_apply_piece (0 : Fin S3072.rank) _ _ (ix1 (⟨2048 + j.val, by omega⟩ : Fin 3072)) 2 (by show 2 < 3; omega) S1024 b2 rfl rfl 2048 rfl (ix1 j)
      (fun b => by
        match b with
        | ⟨0, _⟩ => exact fun h => absurd rfl h)
      rfl]

/-! ## What the launch finds in the three arrays the host formed -/

variable (m : (ℓ : Loc nD τ sig) → Buf (Elt Ideal) ℓ)

/-- The x-side fused matrix, from the three input-to-gate weight matrices. -/
theorem V_fusedX (c : Dev nD) : V m c main_v4
    = (truncf .bf16 (fusedMatrix (m ((c : Thread nD τ).loc main_arg3)) (m ((c : Thread nD τ).loc main_arg7)) (m ((c : Thread nD τ).loc main_arg11))) Gen.bitsLt_bf16_f32 : FVec Ideal S1024x3072 .bf16) := by
  dsimp only [V, hostOps0]; after_results; rfl

/-- The h-side fused matrix, from the three hidden-to-gate weight matrices. -/
theorem V_fusedH (c : Dev nD) : V m c main_v9
    = (truncf .bf16 (fusedMatrix (m ((c : Thread nD τ).loc main_arg5)) (m ((c : Thread nD τ).loc main_arg9)) (m ((c : Thread nD τ).loc main_arg13))) Gen.bitsLt_bf16_f32 : FVec Ideal S1024x3072 .bf16) := by
  dsimp only [V, hostOps0]; after_results; rfl

/-- The fused bias row, from the six bias vectors. -/
theorem V_fusedBias (c : Dev nD) : V m c main_v13
    = fusedBias (m ((c : Thread nD τ).loc main_arg4)) (m ((c : Thread nD τ).loc main_arg8)) (m ((c : Thread nD τ).loc main_arg12)) (m ((c : Thread nD τ).loc main_arg6)) (m ((c : Thread nD τ).loc main_arg10)) (m ((c : Thread nD τ).loc main_arg14)) := by
  dsimp only [V, hostOps0]; after_results; rfl

end Cert.KernelIdeal.CellValue

end
-- ==== Proof.Spec.lean ====
/-
  The LSTM cell update as one function of the fifteen argument arrays, entry by entry, on the extended reals.

  For a row `r` of the batch and a hidden unit `j`, each of the three gates (input, forget, candidate) has the
  pre-activation
      pre(r, j) = (Σₖ x[r, k] · Wx[j, k]  +  Σₖ h[r, k] · Wh[j, k])  +  (bx[j] + bh[j]),
  with its own pair of weight matrices and bias vectors, and the new cell state is
      c'[r, j] = σ(pre_f(r, j)) · c[r, j]  +  σ(pre_i(r, j)) · tanh(pre_g(r, j)),
  where σ(z) = 1 / (1 + e^(−z)) with the extended reals' conventions at ±∞.
  Both programs compute this function: they differ in how the three gates are laid side by side before the two
  products are taken, and in the grouping of the four summands of a pre-activation, which is immaterial because
  addition of extended reals is commutative and associative.
-/
import Idealize.ShloMosaic.PureOps.Ideal
import Idealize.ShloMosaic.PureOps.Ideal.Laws
import Idealize.ShloMosaic.Lib.ValueIdx

noncomputable section

open scoped BigOperators

namespace Cert.Lstm

open Idealize.ShloMosaic Idealize.ShloMosaic.ValueIdx

/-- A batch-by-feature array: 16384 rows of 1024 entries. -/
abbrev Rows : Type := (⟨2, ![16384, 1024]⟩ : Shape).Idx → EReal
/-- A weight matrix: 1024 output units by 1024 input features. -/
abbrev Weights : Type := (⟨2, ![1024, 1024]⟩ : Shape).Idx → EReal
/-- A bias vector: one entry per output unit. -/
abbrev Bias : Type := (⟨1, ![1024]⟩ : Shape).Idx → EReal

/-- The pre-activation of one gate at row `r`, unit `j`: the two inner products of the row of `x` and of `h` with the
    unit's rows of the gate's two weight matrices, plus the unit's two biases. -/
def pre (x h : Rows) (Wx Wh : Weights) (bx bh : Bias) (r : Fin 16384) (j : Fin 1024) : EReal :=
  ((∑ k : Fin 1024, x (ix2 r k) * Wx (ix2 j k)) + (∑ k : Fin 1024, h (ix2 r k) * Wh (ix2 j k)))
    + (bx (ix1 j) + bh (ix1 j))

/-- The new cell state at row `r`, unit `j`: the forget gate times the old state plus the input gate times the
    candidate. -/
def cellAt (x h c : Rows) (Wxi : Weights) (bxi : Bias) (Whi : Weights) (bhi : Bias) (Wxf : Weights) (bxf : Bias)
    (Whf : Weights) (bhf : Bias) (Wxg : Weights) (bxg : Bias) (Whg : Weights) (bhg : Bias)
    (r : Fin 16384) (j : Fin 1024) : EReal :=
  Ideal.logistic (pre x h Wxf Whf bxf bhf r j) * c (ix2 r j)
    + Ideal.logistic (pre x h Wxi Whi bxi bhi r j) * Ideal.tanh (pre x h Wxg Whg bxg bhg r j)

/-- The new cell state as a whole array. -/
def cell (x h c : Rows) (Wxi : Weights) (bxi : Bias) (Whi : Weights) (bhi : Bias) (Wxf : Weights) (bxf : Bias)
    (Whf : Weights) (bhf : Bias) (Wxg : Weights) (bxg : Bias) (Whg : Weights) (bhg : Bias) : Rows :=
  fun i => cellAt x h c Wxi bxi Whi bhi Wxf bxf Whf bhf Wxg bxg Whg bhg (i 0) (i 1)

theorem cell_apply (x h c : Rows) (Wxi : Weights) (bxi : Bias) (Whi : Weights) (bhi : Bias) (Wxf : Weights) (bxf : Bias)
    (Whf : Weights) (bhf : Bias) (Wxg : Weights) (bxg : Bias) (Whg : Weights) (bhg : Bias) (r : Fin 16384) (j : Fin 1024) :
    cell x h c Wxi bxi Whi bhi Wxf bxf Whf bhf Wxg bxg Whg bhg (ix2 r j)
      = cellAt x h c Wxi bxi Whi bhi Wxf bxf Whf bhf Wxg bxg Whg bhg r j := rfl

/-- The same pre-activation with its four summands grouped the other way: first product plus first bias, then the second
    product, then the second bias. -/
theorem pre_regroup (A B p q : EReal) : ((A + p) + B) + q = (A + B) + (p + q) := by
  rw [add_assoc A p B, add_comm p B, ← add_assoc A B p, add_assoc (A + B) p q]

end Cert.Lstm

end
-- ==== Proof.KernelValue.lean ====
/-
  From the blocks written back to the whole result array.

  Grid point `t` is handed rows 256·t … 256·t + 255 of x, h and c and the whole of the fused matrices and the bias row; what it
  writes back, entry (p, q) of its block, is the new cell state at batch row 256·t + p and unit q: each band of the fused
  pre-activation is one gate's pre-activation, because fused column 1024·g + q holds gate g's weights and biases of unit q.
  The 64 blocks tile the 16384 rows — row r lies in the block of point r / 256 — so after the run the result array is the
  new cell state everywhere.
-/
import proofs.«123593_j33921651704111_2_alg».proof.Proof.FrameIdeal
import proofs.«123593_j33921651704111_2_alg».proof.Proof.Payload
import proofs.«123593_j33921651704111_2_alg».proof.Proof.HostPrefix
import proofs.«123593_j33921651704111_2_alg».proof.Proof.Spec
import Idealize.ShloMosaic.Lib.Pipeline.Value

set_option maxRecDepth 16384

noncomputable section

open scoped BigOperators

namespace Cert.KernelIdeal.CellValue

open Cert.KernelIdeal Cert.KernelIdeal.Gen Cert.KernelIdeal.Frame
open Idealize.ShloMosaic Idealize.ShloMosaic.ValueIdx Idealize.ShloMosaic.TcCoe Idealize.SL.Sem
open Idealize.ShloMosaic.Pipeline (Dat)

variable (m : (ℓ : Loc nD τ sig) → Buf (Elt Ideal) ℓ) (ρ : Dev nD → PrngReg)

/-- The new cell state of core `c`'s fifteen argument arrays. -/
abbrev cellOf (c : Dev nD) : S16384x1024.Idx → EReal :=
  Cert.Lstm.cell (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14))

/-- The grid has 64 points. -/
theorem t_lt (t : Fin cfg0.N) : t.val < 64 := lt_of_lt_of_eq t.isLt N_0

theorem hz : (![0, 0] : Fin 2 → Nat) = fun _ => 0 := funext fun a => by fin_cases a <;> rfl

/-- Where each window's block sits at point `t`: the three row windows and the result at block row `t`, the three
    resident windows at the origin. -/
structure IdxFacts (t : Fin cfg0.N) : Prop where
  w0r : win0_0.index t (0 : Fin 2) = t.val
  w0c : win0_0.index t (1 : Fin 2) = 0
  w1r : win0_1.index t (0 : Fin 2) = t.val
  w1c : win0_1.index t (1 : Fin 2) = 0
  w2r : win0_2.index t (0 : Fin 2) = t.val
  w2c : win0_2.index t (1 : Fin 2) = 0
  w3r : win0_3.index t (0 : Fin 2) = 0
  w3c : win0_3.index t (1 : Fin 2) = 0
  w4r : win0_4.index t (0 : Fin 2) = 0
  w4c : win0_4.index t (1 : Fin 2) = 0
  w5r : win0_5.index t (0 : Fin 2) = 0
  w5c : win0_5.index t (1 : Fin 2) = 0
  w6r : win0_6.index t (0 : Fin 2) = t.val
  w6c : win0_6.index t (1 : Fin 2) = 0

theorem idx_facts_all : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = t.val ∧ win0_6.index t (1 : Fin 2) = 0 :=
  (by decide +kernel : ∀ t : Fin grid0.N, _)

theorem idx_facts (t : Fin cfg0.N) : IdxFacts t := by
  obtain ⟨a0, a1, a2, a3, a4, a5, a6, a7, a8, a9, a10, a11, a12, a13⟩ := idx_facts_all t
  exact ⟨a0, a1, a2, a3, a4, a5, a6, a7, a8, a9, a10, a11, a12, a13⟩

/-! ## The input blocks, entry by entry -/

/-- Window 0's block at point `t`, row `p`: row 256·t + p of argument 0. -/
theorem rows_block0 (c : Dev nD) (t : Fin cfg0.N) (p : Fin 256) (k : Fin 1024) :
    (iblk m c 0 t : Vec Ideal S256x1024 .f32) (ix2 p k)
      = (m ((c : Thread nD τ).loc main_arg0) : S16384x1024.Idx → EReal) (ix2 ⟨256 * t.val + p.val, by have := t_lt t; omega⟩ k) := by
  have e := idx_facts t
  show V m c main_arg0 (((cfg0.win 0).blk t).view.emb (ix2 p k)) = _
  rw [V_main_arg0]
  refine congrArg (m ((c : Thread nD τ).loc main_arg0)) (funext fun a => Fin.ext ?_)
  match a with
  | ⟨0, _⟩ => show win0_0.index t (0 : Fin 2) * 256 + 1 * p.val = 256 * t.val + p.val; rw [e.w0r]; omega
  | ⟨1, _⟩ => show win0_0.index t (1 : Fin 2) * 1024 + 1 * k.val = k.val; rw [e.w0c]; omega

/-- Window 1's block at point `t`, row `p`: row 256·t + p of argument 1. -/
theorem rows_block1 (c : Dev nD) (t : Fin cfg0.N) (p : Fin 256) (k : Fin 1024) :
    (iblk m c 1 t : Vec Ideal S256x1024 .f32) (ix2 p k)
      = (m ((c : Thread nD τ).loc main_arg1) : S16384x1024.Idx → EReal) (ix2 ⟨256 * t.val + p.val, by have := t_lt t; omega⟩ k) := by
  have e := idx_facts t
  show V m c main_arg1 (((cfg0.win 1).blk t).view.emb (ix2 p k)) = _
  rw [V_main_arg1]
  refine congrArg (m ((c : Thread nD τ).loc main_arg1)) (funext fun a => Fin.ext ?_)
  match a with
  | ⟨0, _⟩ => show win0_1.index t (0 : Fin 2) * 256 + 1 * p.val = 256 * t.val + p.val; rw [e.w1r]; omega
  | ⟨1, _⟩ => show win0_1.index t (1 : Fin 2) * 1024 + 1 * k.val = k.val; rw [e.w1c]; omega

/-- Window 2's block at point `t`, row `p`: row 256·t + p of argument 2. -/
theorem rows_block2 (c : Dev nD) (t : Fin cfg0.N) (p : Fin 256) (k : Fin 1024) :
    (iblk m c 2 t : Vec Ideal S256x1024 .f32) (ix2 p k)
      = (m ((c : Thread nD τ).loc main_arg2) : S16384x1024.Idx → EReal) (ix2 ⟨256 * t.val + p.val, by have := t_lt t; omega⟩ k) := by
  have e := idx_facts t
  show V m c main_arg2 (((cfg0.win 2).blk t).view.emb (ix2 p k)) = _
  rw [V_main_arg2]
  refine congrArg (m ((c : Thread nD τ).loc main_arg2)) (funext fun a => Fin.ext ?_)
  match a with
  | ⟨0, _⟩ => show win0_2.index t (0 : Fin 2) * 256 + 1 * p.val = 256 * t.val + p.val; rw [e.w2r]; omega
  | ⟨1, _⟩ => show win0_2.index t (1 : Fin 2) * 1024 + 1 * k.val = k.val; rw [e.w2c]; omega

/-- Window 3's block at every point is the whole X-side fused matrix. -/
theorem fusedX_block (c : Dev nD) (t : Fin cfg0.N) (k : Fin 1024) (n : Fin 3072) :
    (iblk m c 3 t : Vec Ideal S1024x3072 .bf16) (ix2 k n) = fusedMatrix (m ((c : Thread nD τ).loc main_arg3)) (m ((c : Thread nD τ).loc main_arg7)) (m ((c : Thread nD τ).loc main_arg11)) (ix2 k n) := by
  have e := idx_facts t
  show V m c main_v4 (((cfg0.win 3).blk t).view.emb (ix2 k n)) = _
  rw [V_fusedX]
  show fusedMatrix (m ((c : Thread nD τ).loc main_arg3)) (m ((c : Thread nD τ).loc main_arg7)) (m ((c : Thread nD τ).loc main_arg11)) (((cfg0.win 3).blk t).view.emb (ix2 k n)) = _
  refine congrArg (fusedMatrix (m ((c : Thread nD τ).loc main_arg3)) (m ((c : Thread nD τ).loc main_arg7)) (m ((c : Thread nD τ).loc main_arg11))) (funext fun a => Fin.ext ?_)
  match a with
  | ⟨0, _⟩ => show win0_3.index t (0 : Fin 2) * 1024 + 1 * k.val = k.val; rw [e.w3r]; omega
  | ⟨1, _⟩ => show win0_3.index t (1 : Fin 2) * 3072 + 1 * n.val = n.val; rw [e.w3c]; omega

/-- Window 4's block at every point is the whole H-side fused matrix. -/
theorem fusedH_block (c : Dev nD) (t : Fin cfg0.N) (k : Fin 1024) (n : Fin 3072) :
    (iblk m c 4 t : Vec Ideal S1024x3072 .bf16) (ix2 k n) = fusedMatrix (m ((c : Thread nD τ).loc main_arg5)) (m ((c : Thread nD τ).loc main_arg9)) (m ((c : Thread nD τ).loc main_arg13)) (ix2 k n) := by
  have e := idx_facts t
  show V m c main_v9 (((cfg0.win 4).blk t).view.emb (ix2 k n)) = _
  rw [V_fusedH]
  show fusedMatrix (m ((c : Thread nD τ).loc main_arg5)) (m ((c : Thread nD τ).loc main_arg9)) (m ((c : Thread nD τ).loc main_arg13)) (((cfg0.win 4).blk t).view.emb (ix2 k n)) = _
  refine congrArg (fusedMatrix (m ((c : Thread nD τ).loc main_arg5)) (m ((c : Thread nD τ).loc main_arg9)) (m ((c : Thread nD τ).loc main_arg13))) (funext fun a => Fin.ext ?_)
  match a with
  | ⟨0, _⟩ => show win0_4.index t (0 : Fin 2) * 1024 + 1 * k.val = k.val; rw [e.w4r]; omega
  | ⟨1, _⟩ => show win0_4.index t (1 : Fin 2) * 3072 + 1 * n.val = n.val; rw [e.w4c]; omega

/-- Window 5's block at every point is the whole fused bias row. -/
theorem bias_block (c : Dev nD) (t : Fin cfg0.N) (n : Fin 3072) :
    (iblk m c 5 t : Vec Ideal S1x3072 .f32) (ix2 (0 : Fin 1) n)
      = fusedBias (m ((c : Thread nD τ).loc main_arg4)) (m ((c : Thread nD τ).loc main_arg8)) (m ((c : Thread nD τ).loc main_arg12)) (m ((c : Thread nD τ).loc main_arg6)) (m ((c : Thread nD τ).loc main_arg10)) (m ((c : Thread nD τ).loc main_arg14)) (ix2 (0 : Fin 1) n) := by
  have e := idx_facts t
  show V m c main_v13 (((cfg0.win 5).blk t).view.emb (ix2 (0 : Fin 1) n)) = _
  rw [V_fusedBias]
  refine congrArg (fusedBias (m ((c : Thread nD τ).loc main_arg4)) (m ((c : Thread nD τ).loc main_arg8)) (m ((c : Thread nD τ).loc main_arg12)) (m ((c : Thread nD τ).loc main_arg6)) (m ((c : Thread nD τ).loc main_arg10)) (m ((c : Thread nD τ).loc main_arg14))) (funext fun a => Fin.ext ?_)
  match a with
  | ⟨0, _⟩ => show win0_5.index t (0 : Fin 2) * 1 + 1 * 0 = 0; rw [e.w5r]
  | ⟨1, _⟩ => show win0_5.index t (1 : Fin 2) * 3072 + 1 * n.val = n.val; rw [e.w5c]; omega

/-! ## Each band of the fused pre-activation is one gate's -/

/-- The input gate's band of the fused pre-activation, at row `p` of point `t`'s block and unit `q`, is that gate's
    pre-activation at row 256·t + p of the batch. -/
theorem fusedPre_block0 (c : Dev nD) (t : Fin cfg0.N) (p : Fin 256) (q : Fin 1024) :
    fusedPre (iblk m c 0 t) (iblk m c 1 t) (iblk m c 3 t) (iblk m c 4 t) (iblk m c 5 t) p ⟨q.val, by omega⟩
      = Cert.Lstm.pre (m ((c : Thread nD τ).loc main_arg0)) (m ((c : Thread nD τ).loc main_arg1)) (m ((c : Thread nD τ).loc main_arg3)) (m ((c : Thread nD τ).loc main_arg5)) (m ((c : Thread nD τ).loc main_arg4)) (m ((c : Thread nD τ).loc main_arg6)) ⟨256 * t.val + p.val, by have := t_lt t; omega⟩ q := by
  unfold fusedPre Cert.Lstm.pre
  rw [bias_block m c t, fusedBias_apply0]
  refine congrArg₂ (· + ·) (congrArg₂ (· + ·) (Finset.sum_congr rfl fun k _ => ?_) (Finset.sum_congr rfl fun k _ => ?_)) rfl
  · rw [rows_block0 m c t p k, fusedX_block m c t k, fusedMatrix_apply0]
  · rw [rows_block1 m c t p k, fusedH_block m c t k, fusedMatrix_apply0]

/-- The forget gate's band of the fused pre-activation, at row `p` of point `t`'s block and unit `q`, is that gate's
    pre-activation at row 256·t + p of the batch. -/
theorem fusedPre_block1 (c : Dev nD) (t : Fin cfg0.N) (p : Fin 256) (q : Fin 1024) :
    fusedPre (iblk m c 0 t) (iblk m c 1 t) (iblk m c 3 t) (iblk m c 4 t) (iblk m c 5 t) p ⟨1024 + q.val, by omega⟩
      = Cert.Lstm.pre (m ((c : Thread nD τ).loc main_arg0)) (m ((c : Thread nD τ).loc main_arg1)) (m ((c : Thread nD τ).loc main_arg7)) (m ((c : Thread nD τ).loc main_arg9)) (m ((c : Thread nD τ).loc main_arg8)) (m ((c : Thread nD τ).loc main_arg10)) ⟨256 * t.val + p.val, by have := t_lt t; omega⟩ q := by
  unfold fusedPre Cert.Lstm.pre
  rw [bias_block m c t, fusedBias_apply1]
  refine congrArg₂ (· + ·) (congrArg₂ (· + ·) (Finset.sum_congr rfl fun k _ => ?_) (Finset.sum_congr rfl fun k _ => ?_)) rfl
  · rw [rows_block0 m c t p k, fusedX_block m c t k, fusedMatrix_apply1]
  · rw [rows_block1 m c t p k, fusedH_block m c t k, fusedMatrix_apply1]

/-- The candidate gate's band of the fused pre-activation, at row `p` of point `t`'s block and unit `q`, is that gate's
    pre-activation at row 256·t + p of the batch. -/
theorem fusedPre_block2 (c : Dev nD) (t : Fin cfg0.N) (p : Fin 256) (q : Fin 1024) :
    fusedPre (iblk m c 0 t) (iblk m c 1 t) (iblk m c 3 t) (iblk m c 4 t) (iblk m c 5 t) p ⟨2048 + q.val, by omega⟩
      = Cert.Lstm.pre (m ((c : Thread nD τ).loc main_arg0)) (m ((c : Thread nD τ).loc main_arg1)) (m ((c : Thread nD τ).loc main_arg11)) (m ((c : Thread nD τ).loc main_arg13)) (m ((c : Thread nD τ).loc main_arg12)) (m ((c : Thread nD τ).loc main_arg14)) ⟨256 * t.val + p.val, by have := t_lt t; omega⟩ q := by
  unfold fusedPre Cert.Lstm.pre
  rw [bias_block m c t, fusedBias_apply2]
  refine congrArg₂ (· + ·) (congrArg₂ (· + ·) (Finset.sum_congr rfl fun k _ => ?_) (Finset.sum_congr rfl fun k _ => ?_)) rfl
  · rw [rows_block0 m c t p k, fusedX_block m c t k, fusedMatrix_apply2]
  · rw [rows_block1 m c t p k, fusedH_block m c t k, fusedMatrix_apply2]

/-! ## What a point writes back -/

/-- Entry (p, q) of what the body stores at point `t` is the new cell state at batch row 256·t + p, unit q. -/
theorem block_entry (c : Dev nD) (t : Fin cfg0.N) (p : Fin 256) (q : Fin 1024) :
    k0_pay1 (F := Ideal) (iblk m c 0 t) (iblk m c 1 t) (iblk m c 3 t) (iblk m c 4 t) (iblk m c 5 t) (iblk m c 2 t) (ix2 p q)
      = cellOf m c (ix2 ⟨256 * t.val + p.val, by have := t_lt t; omega⟩ q) := by
  refine (payload_apply (iblk m c 0 t) (iblk m c 1 t) (iblk m c 3 t) (iblk m c 4 t) (iblk m c 5 t) (iblk m c 2 t) p q).trans ?_
  rw [fusedPre_block0 m c t p q, fusedPre_block1 m c t p q, fusedPre_block2 m c t p q, rows_block2 m c t p q]
  rfl

/-- What point `t` writes back is block `t` of the new cell state. -/
theorem flushed_eq (c : Dev nD) (t : Fin cfg0.N) :
    (dats m 0 c).flushed 6 t = ((cfg0.win 6).blk t).view.read (Elt Ideal) (cellOf m c) := by
  show (cfg0.win 6).cut (grid0.coords t) ((dats m 0 c).after 6 t) = _
  rw [after6]
  unfold blockOut
  rw [View.canon_unit_zero hz]
  simp only [View.ld_unit_zero (S := S256x1024) hz, View.ld_unit_zero (S := S1024x3072) hz, View.ld_unit_zero (S := S1x3072) hz]
  have e := idx_facts t
  funext y
  obtain ⟨p, q, rfl⟩ : ∃ (p : Fin 256) (q : Fin 1024), y = ix2 p q := ⟨y 0, y 1, eq_ix2 y⟩
  show k0_pay1 (F := Ideal) (iblk m c 0 t) (iblk m c 1 t) (iblk m c 3 t) (iblk m c 4 t) (iblk m c 5 t) (iblk m c 2 t) (ix2 p q)
    = cellOf m c (((cfg0.win 6).blk t).view.emb (ix2 p q))
  rw [block_entry m c t p q]
  refine congrArg (cellOf m c) (funext fun a => Fin.ext ?_)
  match a with
  | ⟨0, _⟩ => show 256 * t.val + p.val = win0_6.index t (0 : Fin 2) * 256 + 1 * p.val; rw [e.w6r]; omega
  | ⟨1, _⟩ => show q.val = win0_6.index t (1 : Fin 2) * 1024 + 1 * q.val; rw [e.w6c]; omega

/-! ## The blocks tile the array -/

/-- An index of the result array lies in point `t`'s block iff each coordinate lies in the block's range on its axis. -/
theorem mem_blk (t : Fin cfg0.N) (i : S16384x1024.Idx) :
    i ∈ ((cfg0.win 6).blk t).view.set ↔ ∀ a : Fin 2, win0_6.index t a * S256x1024.size a ≤ (i a).val ∧ (i a).val < win0_6.index t a * S256x1024.size a + S256x1024.size a := by
  show i ∈ ((View.whole main_v14).slice (win0_6.rect t)).set ↔ _
  rw [View.set_slice_whole, Rect.mem_set_unit]
  exact Iff.rfl

/-- After the run the result array is the new cell state: row r is written by point r / 256. -/
theorem final (c : Dev nD) : (dats m 0 c).arrAt 6 cfg0.N = cellOf m c :=
  (dats m 0 c).arrAt_eq_of_cover 6 (cellOf m c) (fun t _ => flushed_eq m c t) fun i => by
    have hi0 : (i 0).val < 16384 := (i 0).isLt
    have hi1 : (i 1).val < 1024 := (i 1).isLt
    have hN : (i 0).val / 256 < cfg0.N := by rw [show cfg0.N = grid0.N from rfl, N_0]; omega
    refine ⟨⟨(i 0).val / 256, hN⟩, flush0_6 _, ?_⟩
    rw [mem_blk]
    have e := idx_facts ⟨(i 0).val / 256, hN⟩
    intro a
    match a with
    | ⟨0, _⟩ =>
      show win0_6.index ⟨(i 0).val / 256, hN⟩ (0 : Fin 2) * 256 ≤ (i 0).val ∧ (i 0).val < win0_6.index ⟨(i 0).val / 256, hN⟩ (0 : Fin 2) * 256 + 256
      rw [e.w6r]; show (i 0).val / 256 * 256 ≤ (i 0).val ∧ (i 0).val < (i 0).val / 256 * 256 + 256; omega
    | ⟨1, _⟩ =>
      show win0_6.index ⟨(i 0).val / 256, hN⟩ (1 : Fin 2) * 1024 ≤ (i 1).val ∧ (i 1).val < win0_6.index ⟨(i 0).val / 256, hN⟩ (1 : Fin 2) * 1024 + 1024
      rw [e.w6c]; omega

/-! ## The run, read -/

/-- Every weakly fair execution of the idealized kernel program terminates without a fault, with the result array at the new
    cell state of the arguments and the arguments unchanged. -/
theorem run : θ_run defs (onTc (τ := τ) (main (F := Ideal))) ⟨m, fun _ => 0, ρ⟩ fun r => ∀ c : Dev nD,
      r.2.mem ((c.tc : Thread nD τ).loc main_v14) = cellOf m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14) :=
  (θ_run defs _ _).mono (fun r h c => ⟨((h c).1 6).trans (final m c), args_kept m (dats m) (A_eq m) r h c⟩) (run_main m ρ)

end Cert.KernelIdeal.CellValue

end
-- ==== Proof.RefValue.lean ====
/-
  The reference program computes the LSTM cell update of the specification, entry by entry.

  The reference stacks the three gates' input weights into one 3072-row matrix, and likewise the hidden weights and the
  two families of biases, forms the 3072 pre-activations of a batch row at once, cuts them back into three bands of 1024
  columns, and applies the logistic function (written out as 1 / (1 + e^(-z))) to the first two bands and the hyperbolic
  tangent to the third. Reading every array at one index undoes the stacking: column off + j of the wide array, for
  off = 0, 1024, 2048, only ever meets row j of the matching gate's own weights and entry j of its own biases.
-/
import proofs.«123593_j33921651704111_2_alg».proof.Proof.Gen.ReferenceIdeal.Read
import proofs.«123593_j33921651704111_2_alg».proof.Proof.Spec
import Idealize.ShloMosaic.Lib.ValueIdx
import Idealize.ShloMosaic.Lib.Pipeline.Value
import Idealize.ShloMosaic.PureOps.Ideal.Laws
import Idealize.ShloMosaic.Lib.IdealHost

noncomputable section

open scoped BigOperators

namespace Cert.ReferenceIdeal.RefValue

open Idealize.ShloMosaic Idealize.ShloMosaic.ValueIdx Cert.ReferenceIdeal Cert.ReferenceIdeal.Read

/-! ## Three arrays stacked along the first axis, read at an index

Rows 0..1023 of the stack are the first array's rows, rows 1024..2047 the second's, rows 2048..3071 the third's; the same
for three vectors laid end to end. -/

/-- Row `j` of three stacked matrices is row `j` of the first. -/
theorem stacked_rows_first (A B C : S1024x1024.Idx → EReal)
    (h : Shape.Concatenates [S1024x1024, S1024x1024, S1024x1024] S3072x1024 0)
    (j k : Fin 1024) (hj : j.val < 3072) :
    concatenate S3072x1024 0 [⟨S1024x1024, A⟩, ⟨S1024x1024, B⟩, ⟨S1024x1024, C⟩] h (ix2 ⟨j.val, hj⟩ k) = A (ix2 j k) := by
  refine concatenate_apply_piece (0 : Fin S3072x1024.rank) [⟨S1024x1024, A⟩, ⟨S1024x1024, B⟩, ⟨S1024x1024, C⟩] h _ 0 (by show 0 < 3; omega) S1024x1024 A rfl rfl 0 rfl (ix2 j k) ?_ ?_
  · intro b hb
    match b with
    | ⟨0, _⟩ => exact absurd rfl hb
    | ⟨1, _⟩ => rfl
  · exact Nat.zero_add _

/-- Row `1024 + j` of three stacked matrices is row `j` of the second. -/
theorem stacked_rows_second (A B C : S1024x1024.Idx → EReal)
    (h : Shape.Concatenates [S1024x1024, S1024x1024, S1024x1024] S3072x1024 0)
    (j k : Fin 1024) (hj : 1024 + j.val < 3072) :
    concatenate S3072x1024 0 [⟨S1024x1024, A⟩, ⟨S1024x1024, B⟩, ⟨S1024x1024, C⟩] h (ix2 ⟨1024 + j.val, hj⟩ k) = B (ix2 j k) := by
  refine concatenate_apply_piece (0 : Fin S3072x1024.rank) [⟨S1024x1024, A⟩, ⟨S1024x1024, B⟩, ⟨S1024x1024, C⟩] h _ 1 (by show 1 < 3; omega) S1024x1024 B rfl rfl 1024 rfl (ix2 j k) ?_ ?_
  · intro b hb
    match b with
    | ⟨0, _⟩ => exact absurd rfl hb
    | ⟨1, _⟩ => rfl
  · rfl

/-- Row `2048 + j` of three stacked matrices is row `j` of the third. -/
theorem stacked_rows_third (A B C : S1024x1024.Idx → EReal)
    (h : Shape.Concatenates [S1024x1024, S1024x1024, S1024x1024] S3072x1024 0)
    (j k : Fin 1024) (hj : 2048 + j.val < 3072) :
    concatenate S3072x1024 0 [⟨S1024x1024, A⟩, ⟨S1024x1024, B⟩, ⟨S1024x1024, C⟩] h (ix2 ⟨2048 + j.val, hj⟩ k) = C (ix2 j k) := by
  refine concatenate_apply_piece (0 : Fin S3072x1024.rank) [⟨S1024x1024, A⟩, ⟨S1024x1024, B⟩, ⟨S1024x1024, C⟩] h _ 2 (by show 2 < 3; omega) S1024x1024 C rfl rfl 2048 rfl (ix2 j k) ?_ ?_
  · intro b hb
    match b with
    | ⟨0, _⟩ => exact absurd rfl hb
    | ⟨1, _⟩ => rfl
  · rfl

/-- Entry `j` of three vectors laid end to end is entry `j` of the first. -/
theorem joined_first (p q s : S1024.Idx → EReal)
    (h : Shape.Concatenates [S1024, S1024, S1024] S3072 0) (j : Fin 1024) (hj : j.val < 3072) :
    concatenate S3072 0 [⟨S1024, p⟩, ⟨S1024, q⟩, ⟨S1024, s⟩] h (ix1 ⟨j.val, hj⟩) = p (ix1 j) := by
  refine concatenate_apply_piece (0 : Fin S3072.rank) [⟨S1024, p⟩, ⟨S1024, q⟩, ⟨S1024, s⟩] h _ 0 (by show 0 < 3; omega) S1024 p rfl rfl 0 rfl (ix1 j) ?_ ?_
  · intro b hb
    match b with
    | ⟨0, _⟩ => exact absurd rfl hb
  · exact Nat.zero_add _

/-- Entry `1024 + j` of three vectors laid end to end is entry `j` of the second. -/
theorem joined_second (p q s : S1024.Idx → EReal)
    (h : Shape.Concatenates [S1024, S1024, S1024] S3072 0) (j : Fin 1024) (hj : 1024 + j.val < 3072) :
    concatenate S3072 0 [⟨S1024, p⟩, ⟨S1024, q⟩, ⟨S1024, s⟩] h (ix1 ⟨1024 + j.val, hj⟩) = q (ix1 j) := by
  refine concatenate_apply_piece (0 : Fin S3072.rank) [⟨S1024, p⟩, ⟨S1024, q⟩, ⟨S1024, s⟩] h _ 1 (by show 1 < 3; omega) S1024 q rfl rfl 1024 rfl (ix1 j) ?_ ?_
  · intro b hb
    match b with
    | ⟨0, _⟩ => exact absurd rfl hb
  · rfl

/-- Entry `2048 + j` of three vectors laid end to end is entry `j` of the third. -/
theorem joined_third (p q s : S1024.Idx → EReal)
    (h : Shape.Concatenates [S1024, S1024, S1024] S3072 0) (j : Fin 1024) (hj : 2048 + j.val < 3072) :
    concatenate S3072 0 [⟨S1024, p⟩, ⟨S1024, q⟩, ⟨S1024, s⟩] h (ix1 ⟨2048 + j.val, hj⟩) = s (ix1 j) := by
  refine concatenate_apply_piece (0 : Fin S3072.rank) [⟨S1024, p⟩, ⟨S1024, q⟩, ⟨S1024, s⟩] h _ 2 (by show 2 < 3; omega) S1024 s rfl rfl 2048 rfl (ix1 j) ?_ ?_
  · intro b hb
    match b with
    | ⟨0, _⟩ => exact absurd rfl hb
  · rfl

/-! ## The wide array of pre-activations

Entry (r, c) of the 16384 × 3072 array, for any of its 3072 columns: the row of `x` against row `c` of the stacked
input weights, plus entry `c` of the stacked input biases, plus the row of `h` against row `c` of the stacked hidden
weights, plus entry `c` of the stacked hidden biases — summed in that order. -/

theorem wide_at (x0 x1 : (⟨S16384x1024, .f32⟩ : BufTy).Contents (Elt Ideal)) (x3 : (⟨S1024x1024, .f32⟩ : BufTy).Contents (Elt Ideal)) (x4 : (⟨S1024, .f32⟩ : BufTy).Contents (Elt Ideal)) (x5 : (⟨S1024x1024, .f32⟩ : BufTy).Contents (Elt Ideal)) (x6 : (⟨S1024, .f32⟩ : BufTy).Contents (Elt Ideal)) (x7 : (⟨S1024x1024, .f32⟩ : BufTy).Contents (Elt Ideal)) (x8 : (⟨S1024, .f32⟩ : BufTy).Contents (Elt Ideal)) (x9 : (⟨S1024x1024, .f32⟩ : BufTy).Contents (Elt Ideal)) (x10 : (⟨S1024, .f32⟩ : BufTy).Contents (Elt Ideal)) (x11 : (⟨S1024x1024, .f32⟩ : BufTy).Contents (Elt Ideal)) (x12 : (⟨S1024, .f32⟩ : BufTy).Contents (Elt Ideal)) (x13 : (⟨S1024x1024, .f32⟩ : BufTy).Contents (Elt Ideal)) (x14 : (⟨S1024, .f32⟩ : BufTy).Contents (Elt Ideal))
    (r : Fin 16384) (c : Fin 3072) :
    val_main_v14 (F := Ideal) x0 x1 x3 x4 x5 x6 x7 x8 x9 x10 x11 x12 x13 x14 (ix2 r c)
      = (((∑ k : Fin 1024, x0 (ix2 r k) * val_main_v0 (F := Ideal) x3 x7 x11 (ix2 c k))
            + val_main_v2 (F := Ideal) x4 x8 x12 (ix1 c))
          + (∑ k : Fin 1024, x1 (ix2 r k) * val_main_v1 (F := Ideal) x5 x9 x13 (ix2 c k)))
        + val_main_v3 (F := Ideal) x6 x10 x14 (ix1 c) := by
  have el5 : ∀ k : Fin 1024, lidx_main_v5 (ix2 r c) k = ix2 r k := fun k =>
    funext fun a => match a with | ⟨0, _⟩ => rfl | ⟨1, _⟩ => rfl
  have er5 : ∀ k : Fin 1024, idx_main_v4 (ridx_main_v5 (ix2 r c) k) = ix2 c k := fun k =>
    funext fun a => match a with | ⟨0, _⟩ => rfl | ⟨1, _⟩ => rfl
  have el10 : ∀ k : Fin 1024, lidx_main_v10 (ix2 r c) k = ix2 r k := fun k =>
    funext fun a => match a with | ⟨0, _⟩ => rfl | ⟨1, _⟩ => rfl
  have er10 : ∀ k : Fin 1024, idx_main_v9 (ridx_main_v10 (ix2 r c) k) = ix2 c k := fun k =>
    funext fun a => match a with | ⟨0, _⟩ => rfl | ⟨1, _⟩ => rfl
  have eb7 : idx_main_v6 (idx_main_v7 (ix2 r c)) = ix1 c :=
    funext fun a => match a with | ⟨0, _⟩ => rfl
  have eb13 : idx_main_v12 (idx_main_v13 (ix2 r c)) = ix1 c :=
    funext fun a => match a with | ⟨0, _⟩ => rfl
  rw [val_main_v14_apply, val_main_v11_apply, val_main_v8_apply, val_main_v5_apply, val_main_v10_apply,
    val_main_v7_apply, val_main_v6_apply, val_main_v13_apply, val_main_v12_apply]
  simp only [val_main_v4_apply, val_main_v9_apply, el5, er5, el10, er10, eb7, eb13, Ideal.addf_def]

/-! ## The three bands

Columns 0..1023 of the wide array are the input gate's pre-activations, columns 1024..2047 the forget gate's, columns
2048..3071 the candidate's: in each band the stacked weights and biases reduce to that gate's own, and the four summands
regroup into the two inner products followed by the two biases. -/

/-- Column `j` of the first band is the input gate's pre-activation of unit `j`. -/
theorem band_input (x0 x1 : (⟨S16384x1024, .f32⟩ : BufTy).Contents (Elt Ideal)) (x3 : (⟨S1024x1024, .f32⟩ : BufTy).Contents (Elt Ideal)) (x4 : (⟨S1024, .f32⟩ : BufTy).Contents (Elt Ideal)) (x5 : (⟨S1024x1024, .f32⟩ : BufTy).Contents (Elt Ideal)) (x6 : (⟨S1024, .f32⟩ : BufTy).Contents (Elt Ideal)) (x7 : (⟨S1024x1024, .f32⟩ : BufTy).Contents (Elt Ideal)) (x8 : (⟨S1024, .f32⟩ : BufTy).Contents (Elt Ideal)) (x9 : (⟨S1024x1024, .f32⟩ : BufTy).Contents (Elt Ideal)) (x10 : (⟨S1024, .f32⟩ : BufTy).Contents (Elt Ideal)) (x11 : (⟨S1024x1024, .f32⟩ : BufTy).Contents (Elt Ideal)) (x12 : (⟨S1024, .f32⟩ : BufTy).Contents (Elt Ideal)) (x13 : (⟨S1024x1024, .f32⟩ : BufTy).Contents (Elt Ideal)) (x14 : (⟨S1024, .f32⟩ : BufTy).Contents (Elt Ideal))
    (r : Fin 16384) (j : Fin 1024) :
    val_main_v15 (F := Ideal) x0 x1 x3 x4 x5 x6 x7 x8 x9 x10 x11 x12 x13 x14 (ix2 r j) = Cert.Lstm.pre x0 x1 x3 x5 x4 x6 r j := by
  have hj : j.val < 3072 := by have := j.isLt; omega
  have ei : idx_main_v15 (ix2 r j) = ix2 r (⟨j.val, hj⟩ : Fin 3072) :=
    funext fun a => match a with | ⟨0, _⟩ => rfl | ⟨1, _⟩ => rfl
  rw [val_main_v15_apply, ei, wide_at]
  unfold val_main_v0 val_main_v1 val_main_v2 val_main_v3
  simp only [stacked_rows_first, joined_first]
  exact Cert.Lstm.pre_regroup _ _ _ _

/-- Column `j` of the second band is the forget gate's pre-activation of unit `j`. -/
theorem band_forget (x0 x1 : (⟨S16384x1024, .f32⟩ : BufTy).Contents (Elt Ideal)) (x3 : (⟨S1024x1024, .f32⟩ : BufTy).Contents (Elt Ideal)) (x4 : (⟨S1024, .f32⟩ : BufTy).Contents (Elt Ideal)) (x5 : (⟨S1024x1024, .f32⟩ : BufTy).Contents (Elt Ideal)) (x6 : (⟨S1024, .f32⟩ : BufTy).Contents (Elt Ideal)) (x7 : (⟨S1024x1024, .f32⟩ : BufTy).Contents (Elt Ideal)) (x8 : (⟨S1024, .f32⟩ : BufTy).Contents (Elt Ideal)) (x9 : (⟨S1024x1024, .f32⟩ : BufTy).Contents (Elt Ideal)) (x10 : (⟨S1024, .f32⟩ : BufTy).Contents (Elt Ideal)) (x11 : (⟨S1024x1024, .f32⟩ : BufTy).Contents (Elt Ideal)) (x12 : (⟨S1024, .f32⟩ : BufTy).Contents (Elt Ideal)) (x13 : (⟨S1024x1024, .f32⟩ : BufTy).Contents (Elt Ideal)) (x14 : (⟨S1024, .f32⟩ : BufTy).Contents (Elt Ideal))
    (r : Fin 16384) (j : Fin 1024) :
    val_main_v16 (F := Ideal) x0 x1 x3 x4 x5 x6 x7 x8 x9 x10 x11 x12 x13 x14 (ix2 r j) = Cert.Lstm.pre x0 x1 x7 x9 x8 x10 r j := by
  have hj : 1024 + j.val < 3072 := by have := j.isLt; omega
  have ei : idx_main_v16 (ix2 r j) = ix2 r (⟨1024 + j.val, hj⟩ : Fin 3072) :=
    funext fun a => match a with | ⟨0, _⟩ => rfl | ⟨1, _⟩ => rfl
  rw [val_main_v16_apply, ei, wide_at]
  unfold val_main_v0 val_main_v1 val_main_v2 val_main_v3
  simp only [stacked_rows_second, joined_second]
  exact Cert.Lstm.pre_regroup _ _ _ _

/-- Column `j` of the third band is the candidate's pre-activation of unit `j`. -/
theorem band_candidate (x0 x1 : (⟨S16384x1024, .f32⟩ : BufTy).Contents (Elt Ideal)) (x3 : (⟨S1024x1024, .f32⟩ : BufTy).Contents (Elt Ideal)) (x4 : (⟨S1024, .f32⟩ : BufTy).Contents (Elt Ideal)) (x5 : (⟨S1024x1024, .f32⟩ : BufTy).Contents (Elt Ideal)) (x6 : (⟨S1024, .f32⟩ : BufTy).Contents (Elt Ideal)) (x7 : (⟨S1024x1024, .f32⟩ : BufTy).Contents (Elt Ideal)) (x8 : (⟨S1024, .f32⟩ : BufTy).Contents (Elt Ideal)) (x9 : (⟨S1024x1024, .f32⟩ : BufTy).Contents (Elt Ideal)) (x10 : (⟨S1024, .f32⟩ : BufTy).Contents (Elt Ideal)) (x11 : (⟨S1024x1024, .f32⟩ : BufTy).Contents (Elt Ideal)) (x12 : (⟨S1024, .f32⟩ : BufTy).Contents (Elt Ideal)) (x13 : (⟨S1024x1024, .f32⟩ : BufTy).Contents (Elt Ideal)) (x14 : (⟨S1024, .f32⟩ : BufTy).Contents (Elt Ideal))
    (r : Fin 16384) (j : Fin 1024) :
    val_main_v17 (F := Ideal) x0 x1 x3 x4 x5 x6 x7 x8 x9 x10 x11 x12 x13 x14 (ix2 r j) = Cert.Lstm.pre x0 x1 x11 x13 x12 x14 r j := by
  have hj : 2048 + j.val < 3072 := by have := j.isLt; omega
  have ei : idx_main_v17 (ix2 r j) = ix2 r (⟨2048 + j.val, hj⟩ : Fin 3072) :=
    funext fun a => match a with | ⟨0, _⟩ => rfl | ⟨1, _⟩ => rfl
  rw [val_main_v17_apply, ei, wide_at]
  unfold val_main_v0 val_main_v1 val_main_v2 val_main_v3
  simp only [stacked_rows_third, joined_third]
  exact Cert.Lstm.pre_regroup _ _ _ _

/-! ## The result

The logistic function is by definition 1 / (1 + e^(-z)), and the reference's constant word is the number 1, so the
reference's spelt-out quotient on the first and second bands is the logistic function of the input and forget
pre-activations; the result multiplies the forget gate by the old state and adds the input gate times the hyperbolic
tangent of the candidate. -/

/-- The reference's result array is the specification's cell update of its fifteen arguments. -/
theorem reference_is_cell (x0 x1 x2 : (⟨S16384x1024, .f32⟩ : BufTy).Contents (Elt Ideal)) (x3 : (⟨S1024x1024, .f32⟩ : BufTy).Contents (Elt Ideal)) (x4 : (⟨S1024, .f32⟩ : BufTy).Contents (Elt Ideal)) (x5 : (⟨S1024x1024, .f32⟩ : BufTy).Contents (Elt Ideal)) (x6 : (⟨S1024, .f32⟩ : BufTy).Contents (Elt Ideal)) (x7 : (⟨S1024x1024, .f32⟩ : BufTy).Contents (Elt Ideal)) (x8 : (⟨S1024, .f32⟩ : BufTy).Contents (Elt Ideal)) (x9 : (⟨S1024x1024, .f32⟩ : BufTy).Contents (Elt Ideal)) (x10 : (⟨S1024, .f32⟩ : BufTy).Contents (Elt Ideal)) (x11 : (⟨S1024x1024, .f32⟩ : BufTy).Contents (Elt Ideal)) (x12 : (⟨S1024, .f32⟩ : BufTy).Contents (Elt Ideal)) (x13 : (⟨S1024x1024, .f32⟩ : BufTy).Contents (Elt Ideal)) (x14 : (⟨S1024, .f32⟩ : BufTy).Contents (Elt Ideal)) :
    Cert.ReferenceIdeal.Read.val_main_v33 (F := Ideal) x0 x1 x2 x3 x4 x5 x6 x7 x8 x9 x10 x11 x12 x13 x14
      = Cert.Lstm.cell x0 x1 x2 x3 x4 x5 x6 x7 x8 x9 x10 x11 x12 x13 x14 := by
  funext i
  obtain ⟨r, j, rfl⟩ : ∃ (r : Fin 16384) (j : Fin 1024), i = ix2 r j := ⟨i 0, i 1, eq_ix2 i⟩
  rw [Cert.Lstm.cell_apply]
  unfold Cert.Lstm.cellAt
  rw [val_main_v33_apply, val_main_v31_apply, val_main_v32_apply, val_main_v29_apply, val_main_v23_apply,
    val_main_v30_apply, val_main_v27_apply, val_main_v21_apply, val_main_v25_apply, val_main_v19_apply,
    val_main_v24_apply, val_main_v18_apply, val_main_v28_apply, val_main_v26_apply, val_main_v22_apply,
    val_main_v20_apply, val_main_cst_apply, val_main_cst_0_apply, val_main_cst_1_apply, val_main_cst_2_apply,
    band_input, band_forget, band_candidate]
  simp only [Ideal.addf_def, Ideal.mulf_def, Ideal.hostDivf_def, Ideal.hostUnary_exp_def, Ideal.hostUnary_tanh_def,
    Ideal.hostNegf_def, Ideal.negf_def, Ideal.ofBits_def, Ideal.ofBits_one_f32]
  rfl

end Cert.ReferenceIdeal.RefValue

end
-- ==== Proof.lean ====
/-
  The LSTM cell update: a tiled kernel against the plain array program.

  Both programs take a batch of 16384 rows x, h, c (1024 entries each), six 1024 by 1024 weight matrices and six bias
  vectors, and return the new cell state
      c'[r, j] = σ(pre_f) · c[r, j] + σ(pre_i) · tanh(pre_g),     pre_gate = (Σₖ x[r,k]·Wx[j,k] + Σₖ h[r,k]·Wh[j,k]) + (bx[j] + bh[j]).
  The kernel program lays the three gates' transposed weights side by side into two 1024 by 3072 matrices and the summed
  biases into one row on the host, then runs 64 grid points, each taking 256 rows through two matrix products and the gate
  arithmetic; the reference stacks the weights the other way, takes the two products over the whole batch, adds the biases
  one at a time and slices the three gates apart. On the extended reals the two are the same function of the arguments:
  the matrix products are the same sums, the narrowing of the kernel's operands to a shorter float format is the identity,
  the logistic function is 1 / (1 + e^(−z)) in both, and the two groupings of a pre-activation's four summands agree because
  addition is commutative and associative there (no finiteness of the inputs is used).
  The claims: each of the three programs runs to its end without a fault and leaves its arguments unchanged; the idealized
  kernel is the kernel's own text (nothing was rewritten); and the idealized kernel and reference, run from memories that
  agree on the arguments, end with equal results.
-/
import proofs.«123593_j33921651704111_2_alg».proof.Defs
import proofs.«123593_j33921651704111_2_alg».proof.Proof.Gen.Kernel
import proofs.«123593_j33921651704111_2_alg».proof.Proof.Gen.KernelIdeal
import proofs.«123593_j33921651704111_2_alg».proof.Proof.Gen.ReferenceIdeal
import proofs.«123593_j33921651704111_2_alg».proof.Proof.Gen.ReferenceIdeal.Run
import proofs.«123593_j33921651704111_2_alg».proof.Proof.Gen.ReferenceIdeal.Read
import proofs.«123593_j33921651704111_2_alg».proof.Proof.Gen.Pre_finite_inputs
import proofs.«123593_j33921651704111_2_alg».proof.Proof.FrameBits
import proofs.«123593_j33921651704111_2_alg».proof.Proof.KernelValue
import proofs.«123593_j33921651704111_2_alg».proof.Proof.RefValue
import Idealize.ShloMosaic.Adequacy
import Idealize.ShloMosaic.Init

noncomputable section

namespace Cert.Proof

open Idealize.ShloMosaic Idealize.ShloMosaic.TcCoe Idealize.SL.Sem

/-- The kernel program, at the word level, runs to its end and leaves its arguments unchanged. -/
theorem frame_kernel : Cert.frame_Kernel := fun m ρ _ => Cert.Kernel.Frame.frame m ρ

/-- So does its reading on the extended reals. -/
theorem frame_kernel_ideal : Cert.frame_KernelIdeal := fun m ρ _ => Cert.KernelIdeal.Frame.frame m ρ

/-- The reference is host operations only: its run, with the result forgotten. -/
theorem frame_reference_ideal : Cert.frame_ReferenceIdeal := fun m ρ _ =>
  (θ_run Cert.ReferenceIdeal.defs _ _).mono (fun _ h c => (h c).2) (Cert.ReferenceIdeal.Value.run (F := Ideal) m ρ)

/-- Nothing of the kernel's text was rewritten for the extended reals, so there is nothing to preserve. -/
theorem preserves : Cert.preserves_Kernel_KernelIdeal := trivial

/-- From memories agreeing on the fifteen arguments, the kernel's result array ends at the new cell state of its arguments,
    and the reference's at the new cell state of its own: the same array. -/
theorem algebraic : Cert.algebraic_KernelIdeal_ReferenceIdeal := by
  intro m ρ m' ρ' _ hagree
  refine ⟨fun c => Cert.KernelIdeal.CellValue.cellOf m c, Cert.KernelIdeal.CellValue.run m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5, h6, h7, h8, h9, h10, h11, h12, h13, h14⟩ := hagree c
  rw [Cert.ReferenceIdeal.Read.val_main_v33_eq, Cert.ReferenceIdeal.RefValue.reference_is_cell,
    h0, h1, h2, h3, h4, h5, h6, h7, h8, h9, h10, h11, h12, h13, h14]

theorem claim : Cert.Claim := ⟨Cert.Kernel.Gen.facts, Cert.KernelIdeal.Gen.facts, Cert.ReferenceIdeal.Gen.facts, Cert.Pre_finite_inputs.Gen.facts,
  frame_kernel, frame_kernel_ideal, frame_reference_ideal, preserves, algebraic⟩

end Cert.Proof

end
